-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x64 .f32) (main_arg3 : FVec F S64x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S10000x16 : Shape := ⟨2, ![10000, 16]⟩
abbrev S400x10000 : Shape := ⟨2, ![400, 10000]⟩
abbrev S400x16 : Shape := ⟨2, ![400, 16]⟩
abbrev S10000x64 : Shape := ⟨2, ![10000, 64]⟩
abbrev S400x64 : Shape := ⟨2, ![400, 64]⟩
abbrev S16x10000 : Shape := ⟨2, ![16, 10000]⟩

abbrev nBuf : Space → Nat
  | .hbm => 6
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x16, .f32⟩
  | .hbm, ⟨4, _⟩ => ⟨S10000x16, .f32⟩
  | .hbm, ⟨5, _⟩ => ⟨S10000x10000, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x64, .f32⟩
  | .local _ .vmem, ⟨4, _⟩ => ⟨S64x16, .f32⟩
  | .local _ .vmem, ⟨5, _⟩ => ⟨S400x16, .f32⟩
  | .local _ .vmem, ⟨6, _⟩ => ⟨S400x16, .f32⟩
  | .local _ .vmem, ⟨7, _⟩ => ⟨S10000x64, .f32⟩
  | .local _ .vmem, ⟨8, _⟩ => ⟨S10000x16, .f32⟩
  | .local _ .vmem, ⟨9, _⟩ => ⟨S10000x16, .f32⟩
  | .local _ .vmem, ⟨10, _⟩ => ⟨S400x10000, .f32⟩
  | .local _ .vmem, ⟨11, _⟩ => ⟨S400x10000, .f32⟩
  | .local _ .vmem, ⟨12, _⟩ => ⟨S16x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg1_1 : Ref sig .tc := ⟨.vmem, 11, rfl⟩
abbrev cc1_scratch0 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c400_i32 : BitVec 32 := 400#32
  let v16 : BitVec 32 := Scalar.muli arg0 c400_i32
  let v17 : Index := Scalar.indexCast v16
  let c0_11 : Index := 0#32
  ![v17.toNat, 0]
def k0_cond3 (i : grid0.Coords) : BitVec 1 :=
  let arg0 : BitVec 32 := BitVec.ofNat 32 (i 0).val
  let c25_i32_2 : BitVec 32 := 25#32
  let v6 : BitVec 1 := Scalar.cmpi .sge arg0 c25_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c25_i32 : BitVec 32 := 25#32
  let v0 : BitVec 1 := Scalar.cmpi .slt arg0 c25_i32
  let c25_i32_0 : BitVec 32 := 25#32
  let v1 : BitVec 32 := Scalar.subi arg0 c25_i32_0
  let c0_i32 : BitVec 32 := 0#32
  let v2 : BitVec 32 := Scalar.select v0 c0_i32 v1
  let c0_i32_1 : BitVec 32 := 0#32
  let c0_i32_2 : BitVec 32 := 0#32
  ![v2.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def k1_off1 (i : grid1.Coords) : Fin 2 → Nat :=
  let arg0 : BitVec 32 := BitVec.ofNat 32 (i 0).val
  let c400_i32 : BitVec 32 := 400#32
  let v3 : BitVec 32 := Scalar.muli arg0 c400_i32
  let v4 : Index := Scalar.indexCast v3
  let c0 : Index := 0#32
  ![v4.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S10000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S400x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S400x10000_S400x10000_0_0 : ∀ a, (![0, 0] : Fin 2 → Nat) a + S400x10000.size a ≤ S400x10000.size a
  h_S400x10000 : 0 < S400x10000.numel
  inb_S64x16_S64x16_0_0 : ∀ a, (![0, 0] : Fin 2 → Nat) a + S64x16.size a ≤ S64x16.size a
  h_S64x16 : 0 < S64x16.numel
  h_S400x16 : 0 < S400x16.numel
  shapeCasts_S400x16_S400x16 : S400x16.ShapeCasts S400x16
  inb_S10000x16_S10000x16_0_0 : ∀ a, (![0, 0] : Fin 2 → Nat) a + S10000x16.size a ≤ S10000x16.size a
  h_S10000x16 : 0 < S10000x16.numel
  inb_S400x16_S400x16_0_0 : ∀ a, (![0, 0] : Fin 2 → Nat) a + S400x16.size a ≤ S400x16.size a
  shapeCasts_S10000x16_S10000x16 : S10000x16.ShapeCasts S10000x16
  transposes_S10000x16_p1_0_S16x10000 : S10000x16.Transposes [1, 0] S16x10000
  inb_S16x10000_S16x10000_0_0 : ∀ a, (![0, 0] : Fin 2 → Nat) a + S16x10000.size a ≤ S16x10000.size a
  h_S16x10000 : 0 < S16x10000.numel
  shapeCasts_S16x10000_S16x10000 : S16x10000.ShapeCasts S16x10000
  dot_S10000x128_S128x64_S10000x64_1_0_0_1_n_n_wf : DotDims.WF S10000x128 S128x64 S10000x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  dot_S400x16_S16x10000_S400x10000_1_0_0_1_n_n_wf : DotDims.WF S400x16 S16x10000 S400x10000 [1] [0] [0] [1] [] []
  hrank0 : 0 < grid0.rank
  k0_off1_inb : ∀ i : grid0.Coords, ∀ (k0_h2 : k0_cond2 i = 1#1), ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)
  hrank1 : 0 < grid1.rank
  k1_off1_inb : ∀ i : grid1.Coords, ∀ a, (k1_off1 i) a + S400x16.size a ≤ S10000x16.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S10000x16.size a
  hwx1_0 : ∀ i : grid1.Coords, EltTy.bits .f32 = 32 ∨ (Rect.block (s := S10000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x10000.size a ≤ S10000x10000.size a
  hwx1_1 : ∀ i : grid1.Coords, EltTy.bits .f32 = 32 ∨ (Rect.block (s := S10000x10000) S400x10000.size (cc1_transform_1 i) (hinb1_1 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x10000_S400x10000_1_0_0_1_n_n : DotDims S400x16 S16x10000 S400x10000 where
  lhsContracting := [1]
  rhsContracting := [0]
  lhsNonContracting := [0]
  rhsNonContracting := [1]
  lhsBatch := []
  rhsBatch := []
  wf := dot_S400x16_S16x10000_S400x10000_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

abbrev win1_0 : Pipeline.Window sig grid1 :=
  Pipeline.Window.ofSpec (Memref.whole main_v0) S10000x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S400x10000.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64x16 : Shape := ⟨2, ![64, 16]⟩
abbrev S10000x64 : Shape := ⟨2, ![10000, 64]⟩
abbrev S_ : Shape := ⟨0, ![]⟩
abbrev S10000x16 : Shape := ⟨2, ![10000, 16]⟩
abbrev S16x10000 : Shape := ⟨2, ![16, 10000]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64x16, .f32⟩
  | .hbm, ⟨4, _⟩ => ⟨S10000x64, .f32⟩
  | .hbm, ⟨5, _⟩ => ⟨S10000x64, .f32⟩
  | .hbm, ⟨6, _⟩ => ⟨S_, .f32⟩
  | .hbm, ⟨7, _⟩ => ⟨S10000x64, .f32⟩
  | .hbm, ⟨8, _⟩ => ⟨S10000x64, .f32⟩
  | .hbm, ⟨9, _⟩ => ⟨S10000x16, .f32⟩
  | .hbm, ⟨10, _⟩ => ⟨S10000x16, .f32⟩
  | .hbm, ⟨11, _⟩ => ⟨S16x10000, .f32⟩
  | .hbm, ⟨12, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S10000x64 : S_.BroadcastsInDim S10000x64 (![] : Fin 0 → Fin S10000x64.rank)
  transposes_S10000x16_S16x10000_1_0 : S10000x16.Transposes [1, 0] S16x10000
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.R0Body.lean ====
import proofs.«123276_g25769804171_cont_9to1_1144_6_alg».proof.Proof.Gen.KernelIdeal.Launch
import proofs.«123276_g25769804171_cont_9to1_1144_6_alg».proof.Proof.Gen.KernelIdeal.Skeleton
import proofs.«123276_g25769804171_cont_9to1_1144_6_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel's body, case by case

The body has three conditionals on the grid coordinate s: at s = 0 it fills the first scratch with x·W1; while
s < 25 it stores the 400 rows at offset 400·s of the second scratch, computed from the adjacency block, the first
scratch and W2; from s = 25 on it stores the output block computed from the adjacency block and the second
scratch. Each of the three control cases the grid meets is run once, over any whole memrefs and any contents. -/

/-- The offsets ![0, 0] are zero on every axis. -/
theorem hz2 : (![0, 0] : Fin 2 → ℕ) = fun _ => 0 := funext fun a => by
  match a with
  | ⟨0, _⟩ => rfl
  | ⟨1, _⟩ => rfl

/-- A load of a whole buffer through the rectangle at offset zero of the buffer's own size reads its contents. -/
theorem readAt_unread_zero {S : Shape} {e : EltTy} {arg : Memref sig .tc .vmem S e} (h : arg.IsWhole) {off : Fin S.rank → ℕ}
    (hz : off = fun _ => 0) (inb : ∀ a, off a + S.size a ≤ S.size a) (x : S.Idx → Elt F e) :
    View.readAt (Elt F) arg.view (Rect.unit off S.size inb).toLoadRect (h.unread x) = x := by
  rw [View.readAt_eq_ld, h.read_unread]; exact View.ld_unit_zero hz inb x

/-- The condition of the first conditional, s = 0, as the body computes it. -/
abbrev cond0_1 (i : grid0.Coords) : Prop :=
  (Scalar.cmpi .ne (Scalar.extui (Scalar.cmpi .eq (BitVec.ofNat 32 (i 0).val) 0#32)) 0#32) = 1#1

/-- What a buffer of 10000 rows holds after 400 of its rows, at the offsets the body computes, are overwritten. -/
def upd7 (arg7 : Memref sig .tc .vmem S10000x16 .f32) (harg7 : arg7.IsWhole) (i : grid0.Coords) (h2 : k0_cond2 i = 1#1)
    (x7 : Vec F S10000x16 .f32) (p : Vec F S400x16 .f32) : Vec F S10000x16 .f32 :=
  arg7.view.read (Elt F) (arg7.view.writes (Elt F) (harg7.unread x7)
    [⟨Rect.unit (s := S10000x16) (k0_off1 i) S400x16.size (k0_off1_inb i h2), p⟩])

set_option maxHeartbeats 1000000 in
/-- Case s = 0: the first scratch is filled with the product of the first and third operands, and rows 0..399 of the
    second scratch with the payload of the adjacency block, THAT product and the fourth operand. -/
theorem run0_A (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x64 .f32) (harg3 : arg3.IsWhole) (arg4 : Memref sig .tc .vmem S64x16 .f32) (harg4 : arg4.IsWhole)
    (arg5 : Memref sig .tc .vmem S400x16 .f32) (harg5 : arg5.IsWhole) (arg6 : Memref sig .tc .vmem S10000x64 .f32) (harg6 : arg6.IsWhole)
    (arg7 : Memref sig .tc .vmem S10000x16 .f32) (harg7 : arg7.IsWhole)
    (hc1 : cond0_1 i) (hc2 : k0_cond2 i = 1#1) (hc3 : ¬ k0_cond3 i = 1#1)
    (x0 : Vec F S10000x128 .f32) (x1 : Vec F S400x10000 .f32) (x2 : Vec F S128x64 .f32) (x3 : Vec F S64x16 .f32)
    (x4 : Vec F S400x16 .f32) (x6 : Vec F S10000x64 .f32) (x7 : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x6 ∗ owns (c : Thread nD τ) arg7 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay1 x0 x2) ∗ owns (c : Thread nD τ) arg7 fullShare (upd7 arg7 harg7 i hc2 x7 (k0_pay2 x1 (k0_pay1 x0 x2) x3))) -∗ K ⟨⟩))
      ⊢ wp frame (wpE (defs₀ (F := F)) Variants.none c none) E (cc0__ab_body i arg1 harg1 arg2 harg2 arg3 harg3 arg4 harg4 arg5 harg5 arg6 harg6 arg7 harg7) K := by
  simp only [cc0__ab_body_eq_skeleton]; unfold cc0__ab_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf6; obtain rfl := harg7.eq_unread hf7
  clear hf0 hf1 hf2 hf3 hf4 hf6 hf7
  sl_exec (disch := first | exact hc1 | exact hc2 | exact hc3)
  sl_step
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    rw [readAt_unread_zero harg1 hz2, readAt_unread_zero harg3 hz2]
    exact (View.read_writes_eq_canon _ _ _ (fun y => View.cover_of_tiled [⟨_, _⟩] S10000x64.size (by rfl) y)).trans
      (View.canon_unit_zero hz2 _ _)
  iexists _; isplitr
  swap; · iexact H7
  ipureintro
  rw [readAt_unread_zero harg1 hz2, readAt_unread_zero harg3 hz2, readAt_unread_zero harg2 hz2, readAt_unread_zero harg4 hz2,
    View.readCov_unit_zero _ hz2]
  rfl

set_option maxHeartbeats 1000000 in
/-- Case 0 < s < 25: rows 400·s .. 400·s + 399 of the second scratch are overwritten; the first scratch is read. -/
theorem run0_B (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x64 .f32) (harg3 : arg3.IsWhole) (arg4 : Memref sig .tc .vmem S64x16 .f32) (harg4 : arg4.IsWhole)
    (arg5 : Memref sig .tc .vmem S400x16 .f32) (harg5 : arg5.IsWhole) (arg6 : Memref sig .tc .vmem S10000x64 .f32) (harg6 : arg6.IsWhole)
    (arg7 : Memref sig .tc .vmem S10000x16 .f32) (harg7 : arg7.IsWhole)
    (hc1 : ¬ cond0_1 i) (hc2 : k0_cond2 i = 1#1) (hc3 : ¬ k0_cond3 i = 1#1)
    (x0 : Vec F S10000x128 .f32) (x1 : Vec F S400x10000 .f32) (x2 : Vec F S128x64 .f32) (x3 : Vec F S64x16 .f32)
    (x4 : Vec F S400x16 .f32) (x6 : Vec F S10000x64 .f32) (x7 : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x6 ∗ owns (c : Thread nD τ) arg7 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare x6 ∗ owns (c : Thread nD τ) arg7 fullShare (upd7 arg7 harg7 i hc2 x7 (k0_pay2 x1 x6 x3))) -∗ K ⟨⟩))
      ⊢ wp frame (wpE (defs₀ (F := F)) Variants.none c none) E (cc0__ab_body i arg1 harg1 arg2 harg2 arg3 harg3 arg4 harg4 arg5 harg5 arg6 harg6 arg7 harg7) K := by
  simp only [cc0__ab_body_eq_skeleton]; unfold cc0__ab_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf6; obtain rfl := harg7.eq_unread hf7
  clear hf0 hf1 hf2 hf3 hf4 hf6 hf7
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr; · ipureintro; exact harg6.read_unread _
    iexact H6
  iexists _; isplitr
  swap; · iexact H7
  ipureintro
  rw [readAt_unread_zero harg2 hz2, readAt_unread_zero harg6 hz2, readAt_unread_zero harg4 hz2]
  rfl

set_option maxHeartbeats 1000000 in
/-- Case s ≥ 25: the output block is the product of the adjacency block with the second scratch; both scratches are
    only read. -/
theorem run0_C (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x64 .f32) (harg3 : arg3.IsWhole) (arg4 : Memref sig .tc .vmem S64x16 .f32) (harg4 : arg4.IsWhole)
    (arg5 : Memref sig .tc .vmem S400x16 .f32) (harg5 : arg5.IsWhole) (arg6 : Memref sig .tc .vmem S10000x64 .f32) (harg6 : arg6.IsWhole)
    (arg7 : Memref sig .tc .vmem S10000x16 .f32) (harg7 : arg7.IsWhole)
    (hc1 : ¬ cond0_1 i) (hc2 : ¬ k0_cond2 i = 1#1) (hc3 : k0_cond3 i = 1#1)
    (x0 : Vec F S10000x128 .f32) (x1 : Vec F S400x10000 .f32) (x2 : Vec F S128x64 .f32) (x3 : Vec F S64x16 .f32)
    (x4 : Vec F S400x16 .f32) (x6 : Vec F S10000x64 .f32) (x7 : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x6 ∗ owns (c : Thread nD τ) arg7 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay3 x1 x7)
            ∗ owns (c : Thread nD τ) arg6 fullShare x6 ∗ owns (c : Thread nD τ) arg7 fullShare x7) -∗ K ⟨⟩))
      ⊢ wp frame (wpE (defs₀ (F := F)) Variants.none c none) E (cc0__ab_body i arg1 harg1 arg2 harg2 arg3 harg3 arg4 harg4 arg5 harg5 arg6 harg6 arg7 harg7) K := by
  simp only [cc0__ab_body_eq_skeleton]; unfold cc0__ab_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf6; obtain rfl := harg7.eq_unread hf7
  clear hf0 hf1 hf2 hf3 hf4 hf6 hf7
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [readAt_unread_zero harg2 hz2, readAt_unread_zero harg7 hz2]
    exact (View.read_writes_eq_canon _ _ _ (fun y => View.cover_of_tiled [⟨_, _⟩] S400x16.size (by rfl) y)).trans
      (View.canon_unit_zero hz2 _ _)
  isplitl [H6]
  · iexists _; isplitr; · ipureintro; exact harg6.read_unread _
    iexact H6
  iexists _; isplitr; · ipureintro; exact harg7.read_unread _
  iexact H7

end Cert.KernelIdeal.Hand

end
-- ==== Proof.R0.lean ====
import proofs.«123276_g25769804171_cont_9to1_1144_6_alg».proof.Proof.R0Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel region: what its buffers hold point by point

Stated at a parameter `V`, the contents of the core's unscoped buffers when the region is entered. The grid has 50
points. The two scratch buffers are carried between points: after point 0 the first holds s1 = x·W1 for good; after
point n - 1 < 25 the second holds rows 0 .. 400·n - 1 of s2 = max(adj·s1, 0)·W2, block s of 400 rows being what point s
computed from adjacency block s; from point 25 on it holds all of s2 and point t writes block t - 25 of mu = adj·s2. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The conditions and the schedule in closed form, decided over the grid -/

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, k0_cond2 (grid0.coords t) = 1#1 ↔ t.val < 25 :=
  (by decide +kernel : ∀ t : Fin grid0.N, k0_cond2 (grid0.coords t) = 1#1 ↔ t.val < 25)
theorem hcond0_3 : ∀ t : Fin cfg0.N, k0_cond3 (grid0.coords t) = 1#1 ↔ 25 ≤ t.val :=
  (by decide +kernel : ∀ t : Fin grid0.N, k0_cond3 (grid0.coords t) = 1#1 ↔ 25 ≤ t.val)
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
/-- The output window is idle exactly while s < 25, -/
theorem idle0_4 : ∀ t : Fin cfg0.N, t.val < 25 → cfg0.idle 4 (grid0.coords t) = true :=
  (by decide +kernel : ∀ t : Fin grid0.N, t.val < 25 → cfg0.idle 4 (grid0.coords t) = true)
theorem live0_4 : ∀ t : Fin cfg0.N, 25 ≤ t.val → cfg0.idle 4 (grid0.coords t) = false :=
  (by decide +kernel : ∀ t : Fin grid0.N, 25 ≤ t.val → cfg0.idle 4 (grid0.coords t) = false)
/-- and is written back exactly at the points s ≥ 25. -/
theorem flush0_4 : ∀ t : Fin cfg0.N, (cfg0.win 4).flush t = true ↔ 25 ≤ t.val :=
  (by decide +kernel : ∀ t : Fin grid0.N, win0_4.flush t = true ↔ 25 ≤ t.val)
theorem noflush0_4 (t : Fin cfg0.N) (h : t.val < 25) : (cfg0.win 4).flush t = false := by
  cases hf : (cfg0.win 4).flush t
  · rfl
  · exact absurd ((flush0_4 t).mp hf) (by omega)
/-- The rows the second conditional stores start at row 400·s. -/
theorem off0 : ∀ t : Fin cfg0.N, t.val < 25 → k0_off1 (grid0.coords t) = ![400 * t.val, 0] :=
  (by decide +kernel : ∀ t : Fin grid0.N, t.val < 25 → k0_off1 (grid0.coords t) = ![400 * t.val, 0])

theorem N0lt (t : Fin cfg0.N) : t.val < 50 := lt_of_lt_of_eq t.isLt (show cfg0.N = 50 from N_0)
/-- The first point. -/
def t0 : Fin cfg0.N := ⟨0, lt_of_lt_of_eq (by omega : 0 < 50) (show cfg0.N = 50 from N_0).symm⟩

/-! ## The memrefs the body is called with -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev scM0 : Memref sig .tc .vmem S10000x64 .f32 := Memref.whole cc0_scratch0
abbrev scM1 : Memref sig .tc .vmem S10000x16 .f32 := Memref.whole cc0_scratch1

/-- The core's scoped buffers this kernel never touches (the second kernel's), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- The invariant before the first point: both scratch buffers at anything. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ Rest0 c) ∗ (∃ r, prngReg c r)) := by
  unfold Pipeline.ΦA Rest0; rw [scopedRest0_eq]; simp only [scM0, scM1, owns_whole]; try rfl

/-! ## What the scratch buffers and the output blocks hold -/

/-- s1: what point 0 leaves in the first scratch. -/
def S1 (c : Dev nD) : Vec F S10000x64 .f32 := k0_pay1 (iblk0 V c 0 t0) (iblk0 V c 2 t0)

/-- Block s of s2: what point s < 25 stores into rows 400·s .. 400·s + 399 of the second scratch. -/
def P2 (c : Dev nD) (s : Fin cfg0.N) : Vec F S400x16 .f32 := k0_pay2 (iblk0 V c 1 s) (S1 V c) (iblk0 V c 3 s)

/-- s2 whole: row r is row r mod 400 of block r / 400. -/
def S2 (c : Dev nD) : Vec F S10000x16 .f32 := fun y =>
  P2 V c ⟨(y 0).val / 400, lt_of_lt_of_eq (by have h : (y 0).val < 10000 := (y 0).isLt; omega : (y 0).val / 400 < 50) (show cfg0.N = 50 from N_0).symm⟩
    (ValueIdx.ix2 ⟨(y 0).val % 400, Nat.mod_lt _ (by omega)⟩ ⟨(y 1).val, (y 1).isLt⟩)

/-- What point t ≥ 25 leaves in the output window's staging buffer: the adjacency block times s2. -/
def out4 (c : Dev nD) (t : Fin cfg0.N) : Vec F S400x16 .f32 := k0_pay3 (iblk0 V c 1 t) (S2 V c)

/-- Overwriting rows 400·s .. 400·s + 399 with block s extends a buffer that agrees with s2 on rows below 400·s to one
    that agrees with it on rows below 400·(s + 1). -/
theorem fill_step (c : Dev nD) (t : Fin cfg0.N) (ht : t.val < 25) (h2 : k0_cond2 (grid0.coords t) = 1#1)
    (arg7 : Memref sig .tc .vmem S10000x16 .f32) (harg7 : arg7.IsWhole) (d : Vec F S10000x16 .f32)
    (hd : ∀ y : S10000x16.Idx, (y 0).val < 400 * t.val → d y = S2 V c y) (y : S10000x16.Idx) (hy : (y 0).val < 400 * (t.val + 1)) :
    upd7 arg7 harg7 (grid0.coords t) h2 d (P2 V c t) y = S2 V c y := by
  unfold upd7
  rw [View.read_writes_cons_rows (o := 400 * t.val) (W := 400) arg7.view (harg7.unread d) (k0_off1_inb (grid0.coords t) h2) (P2 V c t) [] y (off0 t ht) rfl rfl]
  have h10 : (y 0).val < 10000 := (y 0).isLt
  split
  · rename_i h
    unfold S2
    have e1 : (⟨(y 0).val / 400, lt_of_lt_of_eq (by have h : (y 0).val < 10000 := (y 0).isLt; omega : (y 0).val / 400 < 50) (show cfg0.N = 50 from N_0).symm⟩ : Fin cfg0.N) = t :=
      Fin.ext (by show (y 0).val / 400 = t.val; omega)
    rw [e1]
    refine congrArg (P2 V c t) (funext fun a => Fin.ext ?_)
    match a with
    | ⟨0, _⟩ => show (y 0).val - 400 * t.val = (y 0).val % 400; omega
    | ⟨1, _⟩ => show (y 1).val - 0 = (y 1).val; omega
  · rename_i h
    have hlt : (y 0).val < 400 * t.val := by omega
    rw [← hd y hlt]
    show arg7.view.read (Elt F) (harg7.unread d) y = d y
    rw [harg7.read_unread]

/-! ## The invariant -/

/-- After point n - 1 ≥ 0: the first scratch at s1, the second agreeing with s2 on rows below 400·n. -/
def Scr (c : Dev nD) (n : ℕ) : sProp 𝕄 :=
  iprop(iprop(owns (c : Thread nD τ) scM0 fullShare (S1 V c)
      ∗ (∃ d : Vec F S10000x16 .f32, ⌜∀ y : S10000x16.Idx, (y 0).val < 400 * n → d y = S2 V c y⌝ ∗ owns (c : Thread nD τ) scM1 fullShare d)
      ∗ Rest0 c) ∗ (∃ r, prngReg c r))

def PhiS0 (c : Dev nD) : ℕ → sProp 𝕄
  | 0 => Pipeline.ΦA spec0 c
  | n + 1 => Scr V c (n + 1)

theorem PhiS0_pos (c : Dev nD) (n : ℕ) (h : n ≠ 0) : PhiS0 V c n = Scr V c n := by
  cases n with
  | zero => exact absurd rfl h
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out4 V c t
  Φ t := PhiS0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out4 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem Phi_castSucc0 (c : Dev nD) (t : Fin cfg0.N) : (dat0 V c).Φ t.castSucc = PhiS0 V c t.val := by
  dsimp only [dat0]; simp only [Fin.coe_castSucc]

end Cert.KernelIdeal.Hand

end
-- ==== Proof.R0Obl.lean ====
import proofs.«123276_g25769804171_cont_9to1_1144_6_alg».proof.Proof.R0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The first kernel region: the body obligation

At every grid point the body, called on the windows' current staging buffers and the two scratch buffers, runs from
the invariant before the point to the invariant after it, leaving each input buffer as found and the output buffer
either untouched (s < 25, where the pipeline does not write it back) or holding the product block (s ≥ 25). -/

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

/-- From point 25 on the second scratch, agreeing with s2 on rows below 400·n ≥ 10000, IS s2. -/
theorem full_of_filled (c : Dev nD) (n : ℕ) (hn : 25 ≤ n) (d : Vec F S10000x16 .f32)
    (hd : ∀ y : S10000x16.Idx, (y 0).val < 400 * n → d y = S2 V c y) : d = S2 V c :=
  funext fun y => hd y (by have h : (y 0).val < 10000 := (y 0).isLt; omega)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) from rfl, PhiS0_pos V c (t.val + 1) (Nat.succ_ne_zero _), Phi_castSucc0]
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  rw [show (dat0 V c).leavesExact 2 t = owns (c : Thread nD τ) (ms0_2 t) fullShare ((dat0 V c).after 2 t) from by
      unfold Dat.leavesExact; rw [live0_2 t], after0_2]
  rw [show (dat0 V c).leavesExact 3 t = owns (c : Thread nD τ) (ms0_3 t) fullShare ((dat0 V c).after 3 t) from by
      unfold Dat.leavesExact; rw [live0_3 t], after0_3]
  have hN := N0lt t
  by_cases hz : t.val = 0
  · -- the first point
    have h1 : cond0_1 (grid0.coords t) := (hcond0_1 t).mpr hz
    have h2 : k0_cond2 (grid0.coords t) = 1#1 := (hcond0_2 t).mpr (by omega)
    have h3 : ¬ k0_cond3 (grid0.coords t) = 1#1 := fun h => by have := (hcond0_3 t).mp h; omega
    rw [Dat.leavesExact_idle (dat0 V c) 4 t (idle0_4 t (by omega)) (noflush0_4 t (by omega))]
    rw [show PhiS0 V c t.val = Pipeline.ΦA spec0 c from by rw [hz]; rfl, PhiA0_eq]
    unfold Scr
    obtain rfl : t = t0 := Fin.ext hz
    iintro ⟨⟨⟨⟨%d6, HS0⟩, ⟨%d7, HS1⟩, HR⟩, Hg⟩, Ho, ⟨%d0, H0⟩, ⟨%d1, H1⟩, ⟨%d2, H2⟩, ⟨%d3, H3⟩, ⟨%d4, H4⟩⟩
    iapply (run0_A c Set.univ (grid0.coords t0) _ _ _ _ _ _ _ _ _ _ _ _ _ _ h1 h2 h3 (iblk0 V c 0 t0) (iblk0 V c 1 t0) (iblk0 V c 2 t0) (iblk0 V c 3 t0) _ d6 d7 _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0]; · iexact HS0
        isplitl [HS1]
        · iexists _; isplitr
          swap; · iexact HS1
          ipureintro
          intro y hy
          exact fill_step V c t0 (by show (0 : ℕ) < 25; omega) h2 scM1 (Memref.isWhole_whole _) d7 (fun y hy => absurd hy (by show ¬ (y 0).val < 400 * 0; omega)) y hy
        iexact HR
      iexact Hg
    isplitl [Ho]; · iexact Ho
    isplitl [H0]; · iexact H0
    isplitl [H1]; · iexact H1
    isplitl [H2]; · iexact H2
    isplitl [H3]; · iexact H3
    iexists _; iexact H4
  · by_cases hlt : t.val < 25
    · -- a later point of the first phase
      have h1 : ¬ cond0_1 (grid0.coords t) := fun h => hz ((hcond0_1 t).mp h)
      have h2 : k0_cond2 (grid0.coords t) = 1#1 := (hcond0_2 t).mpr hlt
      have h3 : ¬ k0_cond3 (grid0.coords t) = 1#1 := fun h => by have := (hcond0_3 t).mp h; omega
      rw [Dat.leavesExact_idle (dat0 V c) 4 t (idle0_4 t hlt) (noflush0_4 t hlt)]
      rw [PhiS0_pos V c t.val hz]
      unfold Scr
      iintro ⟨⟨⟨HS0, ⟨%d7, %hd7, HS1⟩, HR⟩, Hg⟩, Ho, ⟨%d0, H0⟩, ⟨%d1, H1⟩, ⟨%d2, H2⟩, ⟨%d3, H3⟩, ⟨%d4, H4⟩⟩
      iapply (run0_B c Set.univ (grid0.coords t) _ _ _ _ _ _ _ _ _ _ _ _ _ _ h1 h2 h3 (iblk0 V c 0 t) (iblk0 V c 1 t) (iblk0 V c 2 t) (iblk0 V c 3 t) _ (S1 V c) d7 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]
          · iexists _; isplitr
            swap; · iexact HS1
            ipureintro
            intro y hy
            exact fill_step V c t hlt h2 scM1 (Memref.isWhole_whole _) d7 hd7 y hy
          iexact HR
        iexact Hg
      isplitl [Ho]; · iexact Ho
      isplitl [H0]; · iexact H0
      isplitl [H1]; · iexact H1
      isplitl [H2]; · iexact H2
      isplitl [H3]; · iexact H3
      iexists _; iexact H4
    · -- the second phase
      have h25 : 25 ≤ t.val := by omega
      have h1 : ¬ cond0_1 (grid0.coords t) := fun h => hz ((hcond0_1 t).mp h)
      have h2 : ¬ k0_cond2 (grid0.coords t) = 1#1 := fun h => hlt ((hcond0_2 t).mp h)
      have h3 : k0_cond3 (grid0.coords t) = 1#1 := (hcond0_3 t).mpr h25
      rw [show (dat0 V c).leavesExact 4 t = owns (c : Thread nD τ) (ms0_4 t) fullShare ((dat0 V c).after 4 t) from by
        unfold Dat.leavesExact; rw [live0_4 t h25], after0_4]
      rw [PhiS0_pos V c t.val hz]
      unfold Scr
      iintro ⟨⟨⟨HS0, ⟨%d7, %hd7, HS1⟩, HR⟩, Hg⟩, Ho, ⟨%d0, H0⟩, ⟨%d1, H1⟩, ⟨%d2, H2⟩, ⟨%d3, H3⟩, ⟨%d4, H4⟩⟩
      obtain rfl := full_of_filled V c t.val h25 d7 hd7
      iapply (run0_C c Set.univ (grid0.coords t) _ _ _ _ _ _ _ _ _ _ _ _ _ _ h1 h2 h3 (iblk0 V c 0 t) (iblk0 V c 1 t) (iblk0 V c 2 t) (iblk0 V c 3 t) _ (S1 V c) (S2 V c) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]
          · iexists _; isplitr
            swap; · iexact HS1
            ipureintro
            intro y _
            rfl
          iexact HR
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl]
  exact Idealize.SL.BI.Entails.refl _

/-- After the last point the invariant gives the scoped rest back, the scratch contents forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c cfg0.N (by rw [show cfg0.N = 50 from N_0]; omega), PhiA0_eq]
  unfold Scr
  iintro ⟨⟨HS0, ⟨%d7, -, HS1⟩, HR⟩, Hg⟩
  isplitl [HS0 HS1 HR]
  · isplitl [HS0]; · iexists _; iexact HS0
    isplitl [HS1]; · iexists _; iexact HS1
    iexact HR
  iexact Hg

end Cert.KernelIdeal.Hand

end
-- ==== Proof.R1.lean ====
import proofs.«123276_g25769804171_cont_9to1_1144_6_alg».proof.Proof.Gen.KernelIdeal.Launch
import proofs.«123276_g25769804171_cont_9to1_1144_6_alg».proof.Proof.Gen.KernelIdeal.Skeleton
import proofs.«123276_g25769804171_cont_9to1_1144_6_alg».proof.Proof.Gen.KernelIdeal.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered: everything below is stated at them
variable (V : (c : Dev nD) → (b : Ref sig .tc) → Buf (Elt F) ((c : Thread nD τ).loc b))

/-! # The second pallas_call (`cc1__c_body`, 25 grid points), at the entry contents `V`

The body transposes its whole input into a scratch buffer at the first grid point only, and at every point
multiplies 400 rows of the input by the scratch into the output block. The scratch is carried between
points: the region invariant names its contents after the first point. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The zero offsets of a rank-2 access, as a constant function. -/
theorem zeros1 : (![0, 0] : Fin 2 → Nat) = fun _ => 0 := funext fun a => by fin_cases a <;> rfl

/-- The 400 rows of the input the body multiplies at grid coordinates `i`. -/
abbrev rB1 (i : grid1.Coords) : Rect S10000x16 := Rect.unit (s := S10000x16) (k1_off1 i) S400x16.size (k1_off1_inb i)

/-- The first grid point. -/
abbrev t0_1 : Fin cfg1.N := ⟨0, by rw [show cfg1.N = 25 from N_1]; decide⟩

/-- The scratch operand: a whole scoped buffer of the kernel's own, passed beside the windows. -/
abbrev scT1 : Memref sig .tc .vmem S16x10000 .f32 := Memref.whole cc1_scratch0

/-- The branch condition of the body's one conditional, from the grid coordinates. -/
abbrev cond1 (i : grid1.Coords) : Prop := (Scalar.cmpi .ne (Scalar.extui (Scalar.cmpi .eq (BitVec.ofNat 32 (i 0).val) 0#32)) 0#32) = 1#1
/-- It holds at the first point only: decided over the grid. -/
theorem hcond1 : ∀ t : Fin cfg1.N, cond1 (grid1.coords t) ↔ t.val = 0 :=
  (by decide +kernel : ∀ t : Fin grid1.N, cond1 (grid1.coords t) ↔ t.val = 0)

/-! ## What the body leaves -/

/-- What the scratch holds after the first point: the transpose payload of window 0's block there. -/
def mut1 (c : Dev nD) : Vec F S16x10000 .f32 := k1_pay1 (iblk1 V c 0 t0_1 : Vec F S10000x16 .f32)

/-- What the body leaves in window 1's staging buffer at point `t`: the product payload of the point's 400 rows of
    window 0's block and the scratch contents. -/
def out1 (c : Dev nD) (t : Fin cfg1.N) : Vec F S400x10000 .f32 :=
  k1_pay2 (View.ld (iblk1 V c 0 t : Vec F S10000x16 .f32) (rB1 (grid1.coords t))) (mut1 V c)

/-- At the first point the scratch contents are the transpose payload of that point's block. -/
theorem mut1_eq (c : Dev nD) (t : Fin cfg1.N) (hz : t.val = 0) : mut1 V c = k1_pay1 (iblk1 V c 0 t : Vec F S10000x16 .f32) := by
  have h : t = t0_1 := Fin.ext hz
  subst h; rfl

/-- A load through a whole memref, of raw contents that read `X`, reads `X` at the rectangle. -/
theorem readAt_unread1 {sh : Shape} {e : EltTy} (m : Memref sig .tc .vmem sh e) (h : m.IsWhole) (X : sh.Idx → Elt F e) (r : Rect sh) :
    View.readAt (Elt F) m.view r.toLoadRect (h.unread X) = View.ld X r :=
  congrArg (fun Y => View.ld Y r) (h.read_unread X)

/-! ## The body's triple, in its two cases -/

set_option maxHeartbeats 1000000 in
/-- AT THE FIRST POINT (the conditional taken): on whole memrefs, the input at `x0`, the output and the scratch at
    anything, the body runs to the input as it was, the scratch at the transpose payload of `x0` (its one store
    covers the buffer) and the output at the product payload of the point's rows and that payload (the load after
    the covering store reads the payload back). -/
theorem sound_kernel1_Z (c : Dev nD) (E : Set ℕ) (i : grid1.Coords)
    (arg1 : Memref sig .tc .vmem S10000x16 .f32) (harg1 : arg1.IsWhole) (arg2 : Memref sig .tc .vmem S400x10000 .f32) (harg2 : arg2.IsWhole)
    (arg3 : Memref sig .tc .vmem S16x10000 .f32) (harg3 : arg3.IsWhole) (hc : cond1 i)
    (x0 : Vec F S10000x16 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0
            ∗ owns (c : Thread nD τ) arg2 fullShare (k1_pay2 (View.ld x0 (rB1 i)) (k1_pay1 x0))
            ∗ owns (c : Thread nD τ) arg3 fullShare (k1_pay1 x0)) -∗ K ⟨⟩))
      ⊢ wp frame (wpE (defs₀ (F := F)) Variants.none c none) E (cc1__c_body i arg1 harg1 arg2 harg2 arg3 harg3) K := by
  simp only [cc1__c_body_eq_skeleton]; unfold cc1__c_body_skel
  unfold owns
  iintro ⟨⟨%f0, %hf0, H0⟩, ⟨%d1, %f1, -, H1⟩, ⟨%d2, %f2, -, H2⟩, Hk⟩
  obtain rfl := harg1.eq_unread hf0
  sl_exec (disch := first | exact hc)
  sl_step
  sl_unfold_run_names
  have hx : View.readAt (Elt F) arg1.view (Rect.unit (s := S10000x16) ![0, 0] S10000x16.size inb_S10000x16_S10000x16_0_0).toLoadRect (harg1.unread x0) = x0 :=
    (readAt_unread1 arg1 harg1 x0 _).trans (View.ld_unit_zero zeros1 _ x0)
  iapply Hk
  isplitl [H0]
  · iexists _; isplitr; · ipureintro; exact harg1.read_unread _
    iexact H0
  isplitl [H1]
  · iexists _; isplitr
    swap; · iexact H1
    ipureintro
    refine (View.read_writes_eq_canon _ _ _ (fun y => ⟨_, List.mem_singleton_self _, View.mem_set_unit_zero zeros1 inb_S400x10000_S400x10000_0_0 y⟩)).trans
      ((View.canon_unit_zero zeros1 _ _).trans ?_)
    exact congrArg₂ k1_pay2 (readAt_unread1 arg1 harg1 x0 (rB1 i))
      ((View.readCov_unit_zero _ zeros1 _ _).trans (congrArg k1_pay1 hx))
  iexists _; isplitr
  swap; · iexact H2
  ipureintro
  exact (View.read_writes_eq_canon _ _ _ (fun y => ⟨_, List.mem_singleton_self _, View.mem_set_unit_zero zeros1 inb_S16x10000_S16x10000_0_0 y⟩)).trans
    ((View.canon_unit_zero zeros1 _ _).trans (congrArg k1_pay1 hx))

set_option maxHeartbeats 1000000 in
/-- AT A LATER POINT (the conditional not taken): the input at `x0`, the scratch at `xs`, the output at anything;
    the body runs to the input and the scratch as they were and the output at the product payload of the point's
    rows and `xs`. -/
theorem sound_kernel1_P (c : Dev nD) (E : Set ℕ) (i : grid1.Coords)
    (arg1 : Memref sig .tc .vmem S10000x16 .f32) (harg1 : arg1.IsWhole) (arg2 : Memref sig .tc .vmem S400x10000 .f32) (harg2 : arg2.IsWhole)
    (arg3 : Memref sig .tc .vmem S16x10000 .f32) (harg3 : arg3.IsWhole) (hc : ¬ cond1 i)
    (x0 : Vec F S10000x16 .f32) (xs : Vec F S16x10000 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0
            ∗ owns (c : Thread nD τ) arg2 fullShare (k1_pay2 (View.ld x0 (rB1 i)) xs)
            ∗ owns (c : Thread nD τ) arg3 fullShare xs) -∗ K ⟨⟩))
      ⊢ wp frame (wpE (defs₀ (F := F)) Variants.none c none) E (cc1__c_body i arg1 harg1 arg2 harg2 arg3 harg3) K := by
  simp only [cc1__c_body_eq_skeleton]; unfold cc1__c_body_skel
  unfold owns
  iintro ⟨⟨%f0, %hf0, H0⟩, ⟨%d1, %f1, -, H1⟩, ⟨%f2, %hf2, H2⟩, Hk⟩
  obtain rfl := harg1.eq_unread hf0; obtain rfl := harg3.eq_unread hf2
  sl_exec (disch := first | exact hc)
  sl_step
  iapply Hk
  isplitl [H0]
  · iexists _; isplitr; · ipureintro; exact harg1.read_unread _
    iexact H0
  isplitl [H1]
  · iexists _; isplitr
    swap; · iexact H1
    ipureintro
    refine (View.read_writes_eq_canon _ _ _ (fun y => ⟨_, List.mem_singleton_self _, View.mem_set_unit_zero zeros1 inb_S400x10000_S400x10000_0_0 y⟩)).trans
      ((View.canon_unit_zero zeros1 _ _).trans ?_)
    exact congrArg₂ k1_pay2 (readAt_unread1 arg1 harg1 x0 (rB1 i))
      ((readAt_unread1 arg3 harg3 xs _).trans (View.ld_unit_zero zeros1 _ xs))
  iexists _; isplitr; · ipureintro; exact harg3.read_unread _
  iexact H2

/-! ## The region invariant -/

/-- The core's scoped buffers other than the staging buffers of this call and other than its scratch, each whole at
    some contents, and the generator register at some state: what the body never touches. -/
def rest1 (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ ∃ r, prngReg c r)

/-- Nine resources, then one, beside another: the one moved to the front (separating conjunction is associative
    and commutative). -/
theorem chain1 (A1 A2 A3 A4 A5 A6 A7 A8 A9 S G : sProp 𝕄) :
    (iprop((A1 ∗ A2 ∗ A3 ∗ A4 ∗ A5 ∗ A6 ∗ A7 ∗ A8 ∗ A9 ∗ S) ∗ G) : sProp 𝕄) = iprop(S ∗ (A1 ∗ A2 ∗ A3 ∗ A4 ∗ A5 ∗ A6 ∗ A7 ∗ A8 ∗ A9) ∗ G) := by
  have h₁ : iprop((A1 ∗ A2 ∗ A3 ∗ A4 ∗ A5 ∗ A6 ∗ A7 ∗ A8 ∗ A9 ∗ S) ∗ G) ⊢ (iprop(S ∗ (A1 ∗ A2 ∗ A3 ∗ A4 ∗ A5 ∗ A6 ∗ A7 ∗ A8 ∗ A9) ∗ G) : sProp 𝕄) := by
    iintro ⟨⟨H1, H2, H3, H4, H5, H6, H7, H8, H9, HS⟩, Hg⟩
    isplitl [HS]; · iexact HS
    isplitr [Hg]
    swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  have h₂ : iprop(S ∗ (A1 ∗ A2 ∗ A3 ∗ A4 ∗ A5 ∗ A6 ∗ A7 ∗ A8 ∗ A9) ∗ G) ⊢ (iprop((A1 ∗ A2 ∗ A3 ∗ A4 ∗ A5 ∗ A6 ∗ A7 ∗ A8 ∗ A9 ∗ S) ∗ G) : sProp 𝕄) := by
    iintro ⟨HS, ⟨H1, H2, H3, H4, H5, H6, H7, H8, H9⟩, Hg⟩
    isplitr [Hg]
    swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  exact BI.equiv_iff.mp ⟨h₁, h₂⟩

/-- The class invariant with the scratch operand split off as a memref owned at some contents. -/
theorem PhiA1_eq (c : Dev nD) :
    (Pipeline.ΦA spec1 c : sProp 𝕄) = iprop((∃ d, owns (c : Thread nD τ) scT1 fullShare d) ∗ rest1 c) := by
  unfold Pipeline.ΦA rest1; rw [scopedRest1_eq]; simp only [scT1, owns_whole]
  exact chain1 _ _ _ _ _ _ _ _ _ _ _

/-- The region invariant before position `n`: before the first point the class's (every scoped buffer at anything);
    afterwards the scratch at the transpose payload the first point stored, the other scoped buffers at anything,
    the generator register at some state. -/
def PhiS1 (c : Dev nD) : (n : ℕ) → n ≤ cfg1.N → sProp 𝕄
  | 0, _ => Pipeline.ΦA spec1 c
  | _ + 1, _ => iprop(owns (c : Thread nD τ) scT1 fullShare (mut1 V c) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n + 1 ≤ cfg1.N) :
    PhiS1 V c (n + 1) hn = iprop(owns (c : Thread nD τ) scT1 fullShare (mut1 V c) ∗ rest1 c) := rfl

theorem PhiS1_pos (c : Dev nD) (n : ℕ) (h : n ≤ cfg1.N) (hz : n ≠ 0) :
    PhiS1 V c n h = iprop(owns (c : Thread nD τ) scT1 fullShare (mut1 V c) ∗ rest1 c) := by
  cases n with
  | zero => exact absurd rfl hz
  | succ n => rfl

/-! ## The pipeline's proof data -/

/-- The proof data of this pipeline on core `c`: the arrays as the region finds them; after the body at point `t`
    the input's buffer at its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1 V c t := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

set_option maxHeartbeats 1000000 in
/-- The body at any point: the input's memref holds its block; the closed form of the branch condition says which
    case the point is in; at the first point the invariant hands the scratch at anything and takes it back at the
    transpose payload, at a later point it hands the scratch at that payload and takes it back unchanged; the
    other scoped buffers, the generator register and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = PhiS1 V c (t.val + 1) t.isLt from rfl, PhiS1_succ, after1_0, after1_1]
  by_cases hz : t.val = 0
  · rw [PhiS1_castSucc V c t, PhiS1_zero V c _ _ hz, PhiA1_eq]
    unfold out1; rw [mut1_eq V c t hz]
    iintro ⟨⟨HS, HR⟩, Ho, ⟨%d0, H0⟩, ⟨%d1, H1⟩⟩
    iapply (sound_kernel1_Z c Set.univ (grid1.coords t) _ _ _ _ _ _ ((hcond1 t).mpr hz) (iblk1 V c 0 t) _)
    isplitl [H0]; · iexact H0
    isplitl [H1]; · iexists _; iexact H1
    isplitl [HS]; · iexact HS
    iintro ⟨H0, H1, HS⟩
    isplitl [HS HR]
    · isplitl [HS]; · iexact HS
      iexact HR
    isplitl [Ho]; · iexact Ho
    isplitl [H0]; · iexact H0
    iexact H1
  · rw [PhiS1_castSucc V c t, PhiS1_pos V c _ _ hz]
    unfold out1
    iintro ⟨⟨HS, HR⟩, Ho, ⟨%d0, H0⟩, ⟨%d1, H1⟩⟩
    iapply (sound_kernel1_P c Set.univ (grid1.coords t) _ _ _ _ _ _ (fun h => hz ((hcond1 t).mp h)) (iblk1 V c 0 t) (mut1 V c) _)
    isplitl [H0]; · iexact H0
    isplitl [H1]; · iexists _; iexact H1
    isplitl [HS]; · iexact HS
    iintro ⟨H0, H1, HS⟩
    isplitl [HS HR]
    · isplitl [HS]; · iexact HS
      iexact HR
    isplitl [Ho]; · iexact Ho
    isplitl [H0]; · iexact H0
    iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega), PhiA1_eq]
  iintro ⟨HS, HR⟩
  isplitl [HS]
  · iexists _; iexact HS
  iexact HR

end Region1

end Cert.KernelIdeal.Hand

end
-- ==== Proof.Run.lean ====
import proofs.«123276_g25769804171_cont_9to1_1144_6_alg».proof.Proof.R0Obl
import proofs.«123276_g25769804171_cont_9to1_1144_6_alg».proof.Proof.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: the two regions in order, from the launch to the return

The core's unscoped buffers are followed through the program: the launch contents, then region 0's arrays at what its
write-backs leave (the embedding mu in its buffer, the arguments untouched), then region 1's (the reconstruction in
the result buffer). Each region is entered from the contents the one before left; at the end every argument buffer
holds its launch contents and the result buffer what region 1's write-backs left. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev VV0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (VV0 m ρ) c).arrAt w cfg0.N
theorem W1_arr (c : Dev nD) (w : Fin cfg0.W) :
    W1 m ρ c (Proc.devRef .tc (Pipeline.arrRef spec0 w)) = (dat0 (VV0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VV1 : (c : Dev nD) → (b : Ref sig .tc) → Buf (Elt F) ((c : Thread nD τ).loc b) := fun c b => W1 m ρ c b
theorem hF0 (c : Dev nD) (w : Fin cfg0.W) : (dat0 (VV0 m ρ) c).arrAt w cfg0.N = VV1 m ρ c (Pipeline.arrRef spec0 w) :=
  (W1_arr m ρ c w).symm
theorem hrest0 (c : Dev nD) : ∀ b, b ∉ Finset.univ.image (Pipeline.arrRef spec0) → VV1 m ρ c b = VV0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (VV1 m ρ) c).arrAt w cfg1.N
theorem W2_arr (c : Dev nD) (w : Fin cfg1.W) :
    W2 m ρ c (Proc.devRef .tc (Pipeline.arrRef spec1 w)) = (dat1 (VV1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev VV2 : (c : Dev nD) → (b : Ref sig .tc) → Buf (Elt F) ((c : Thread nD τ).loc b) := fun c b => W2 m ρ c b
theorem hF1 (c : Dev nD) (w : Fin cfg1.W) : (dat1 (VV1 m ρ) c).arrAt w cfg1.N = VV2 m ρ c (Pipeline.arrRef spec1 w) :=
  (W2_arr m ρ c w).symm
theorem hrest1 (c : Dev nD) : ∀ b, b ∉ Finset.univ.image (Pipeline.arrRef spec1) → VV2 m ρ c b = VV1 m ρ c b :=
  fun b hb => W2_of_ne m ρ c b fun w e => hb (Finset.mem_image.mpr ⟨w, Finset.mem_univ _, e⟩)

/-! ### The arguments end as launched; the result buffer holds region 1's output -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (VV0 m ρ) c).arrAt_in 0 rfl _).trans (A_eq0 (VV0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (VV0 m ρ) c).arrAt_in 1 rfl _).trans (A_eq0 (VV0 m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (VV0 m ρ) c).arrAt_in 2 rfl _).trans (A_eq0 (VV0 m ρ) c 2))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((dat0 (VV0 m ρ) c).arrAt_in 3 rfl _).trans (A_eq0 (VV0 m ρ) c 3))
    _ = m ((c : Thread nD τ).loc main_arg3) := rfl
theorem W2_main_v1 (c : Dev nD) : W2 m ρ c (Proc.devRef .tc main_v1) = (dat1 (VV1 m ρ) c).arrAt 1 cfg1.N := W2_arr m ρ c 1
/-- Region 1 is entered with the embedding's buffer at what region 0's write-backs left. -/
theorem VV1_main_v0 (c : Dev nD) : VV1 m ρ c main_v0 = (dat0 (VV0 m ρ) c).arrAt 4 cfg0.N := W1_arr m ρ c 4
theorem VV0_main_arg0 (c : Dev nD) : VV0 m ρ c main_arg0 = m ((c : Thread nD τ).loc main_arg0) := rfl
theorem VV0_main_arg1 (c : Dev nD) : VV0 m ρ c main_arg1 = m ((c : Thread nD τ).loc main_arg1) := rfl
theorem VV0_main_arg2 (c : Dev nD) : VV0 m ρ c main_arg2 = m ((c : Thread nD τ).loc main_arg2) := rfl
theorem VV0_main_arg3 (c : Dev nD) : VV0 m ρ c main_arg3 = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VV0 m ρ) c
  | ⟨1, _⟩ => fun c => dat1 (VV1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at the contents the write-backs leave;
    the generator register and the scoped rest go into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VV0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VV0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (VV0 m ρ) c).Φ 0 from rfl]
    refine BIBase.Entails.trans ?_ (hin0 (VV0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (VV0 m ρ) c).Φ (Fin.last cfg0.N) from rfl]
    refine BIBase.Entails.trans (hout0 (VV0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VV0 m ρ c) (VV1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the contents the write-backs leave;
    the generator register and the scoped rest go into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (VV1 m ρ) c).Φ 0 from rfl]
    refine BIBase.Entails.trans ?_ (hin1 (VV1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (VV1 m ρ) c).Φ (Fin.last cfg1.N) from rfl]
    refine BIBase.Entails.trans (hout1 (VV1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VV1 m ρ c) (VV2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two regions, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, faulting
    nowhere, and every final state has the result buffer at what region 1's write-backs leave and each argument
    buffer at its launch contents. -/
theorem run_value : θ_run defs (onTc (τ := τ) (main (F := F))) ⟨m, fun _ => 0, ρ⟩ (fun r => ∀ c : Dev nD,
      r.2.mem ((c.tc : Thread nD τ).loc main_v1) = (dat1 (VV1 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The frame: every argument buffer ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.KernelIdeal.Hand

end
-- ==== Proof.Spec.lean ====
/-
  The graph auto-encoder's forward pass as one function of its four argument arrays on the extended reals,
  entry by entry: the first propagation s1 = x·W1, the hidden layer h = max(adj·s1, 0), the second support
  s2 = h·W2, the embedding mu = adj·s2 and the decoder out = mu·muᵀ. Every product is the plain sum over the
  contracted coordinate; no law of the extended reals is used, so nothing here asks the entries to be finite.
-/
import Idealize.ShloMosaic.Lib.ValueIdx
import Idealize.ShloMosaic.PureOps.Ideal

noncomputable section

open scoped BigOperators

namespace Cert.Spec

open Idealize.ShloMosaic Idealize.ShloMosaic.ValueIdx

variable (x : (⟨2, ![10000, 128]⟩ : Shape).Idx → EReal) (adj : (⟨2, ![10000, 10000]⟩ : Shape).Idx → EReal)
  (w1 : (⟨2, ![128, 64]⟩ : Shape).Idx → EReal) (w2 : (⟨2, ![64, 16]⟩ : Shape).Idx → EReal)

/-- s1 = x·W1 at entry (p, q). -/
def s1 (p : Fin 10000) (q : Fin 64) : EReal := ∑ k : Fin 128, x (ix2 p k) * w1 (ix2 k q)

/-- h = max(adj·s1, 0) at entry (p, q). -/
def hid (p : Fin 10000) (q : Fin 64) : EReal := max (∑ k : Fin 10000, adj (ix2 p k) * s1 x w1 k q) 0

/-- s2 = h·W2 at entry (p, q). -/
def s2 (p : Fin 10000) (q : Fin 16) : EReal := ∑ k : Fin 64, hid x adj w1 p k * w2 (ix2 k q)

/-- mu = adj·s2 at entry (p, q). -/
def mu (p : Fin 10000) (q : Fin 16) : EReal := ∑ k : Fin 10000, adj (ix2 p k) * s2 x adj w1 w2 k q

/-- out = mu·muᵀ at entry (p, q): the inner product of rows p and q of mu. -/
def out (p q : Fin 10000) : EReal := ∑ k : Fin 16, mu x adj w1 w2 p k * mu x adj w1 w2 q k

end Cert.Spec

end
-- ==== Proof.LibPlainDot.lean ====
/-
  A plain matrix product [M, K] · [K, N] (the dimension numbers that contract the left operand's columns with the
  right operand's rows, no batch axis) read at a single entry on the extended reals: entry (p, q) is the sum over
  k of x (p, k) · y (k, q). This holds of the vector unit's product into a zero accumulator and of the host's
  dot_general alike, because at the ideal values both are the exact sum over the contraction index, and for
  these dimension numbers that index is one coordinate k < K.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable (M K N : ℕ)

/-- The left operand's row is the result's row. -/
theorem lhs_row (i : (⟨2, ![M, N]⟩ : Shape).Idx) (k : (DotDims.plain M K N).contr.Idx) :
    ((DotDims.plain M K N).lhsIdx i k 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (k : (DotDims.plain M K N).contr.Idx) :
    ((DotDims.plain M K N).lhsIdx i k 1).val = (k ⟨0, (show 0 < (DotDims.plain M K N).contr.rank from Nat.one_pos)⟩).val :=
  (DotDims.plain M K N).lhsIdx_val_of_single rfl i k

/-- The right operand's row is the contraction coordinate. -/
theorem rhs_row (i : (⟨2, ![M, N]⟩ : Shape).Idx) (k : (DotDims.plain M K N).contr.Idx) :
    ((DotDims.plain M K N).rhsIdx i k 0).val = (k ⟨0, (show 0 < (DotDims.plain M K N).contr.rank from Nat.one_pos)⟩).val :=
  (DotDims.plain M K N).rhsIdx_val_of_single rfl i k

/-- The right operand's column is the result's column. -/
theorem rhs_col (i : (⟨2, ![M, N]⟩ : Shape).Idx) (k : (DotDims.plain M K N).contr.Idx) :
    ((DotDims.plain M K N).rhsIdx i k 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index, re-indexed by its one coordinate. -/
theorem sum_contr (x : (⟨2, ![M, K]⟩ : Shape).Idx → EReal) (y : (⟨2, ![K, N]⟩ : Shape).Idx → EReal) (p : Fin M) (q : Fin N) :
    ∑ k : (DotDims.plain M K N).contr.Idx,
        x ((DotDims.plain M K N).lhsIdx (ix2 p q) k) * y ((DotDims.plain M K N).rhsIdx (ix2 p q) k)
      = ∑ k : Fin K, x (ix2 p k) * y (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

variable {M K N}

/-- The vector unit's product into the zero accumulator, at entry (p, q). The dimension record is any one that
    is the plain one (a program's own record is, by unfolding). -/
theorem matmul_zero_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    matmul D prec x y (constant (F := Ideal) ⟨2, ![M, N]⟩ .f32 0x00000000#32) (ix2 p q) = ∑ k : Fin K, x (ix2 p k) * y (ix2 k q) := by
  subst hD
  exact (Ideal.matmul_constant_zero_apply _ prec x y (ix2 p q)).trans (sum_contr M K N x y p q)

/-- The host's dot_general, at entry (p, q). -/
theorem dotGeneral_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    Host.dotGeneral D prec x y (ix2 p q) = ∑ k : Fin K, x (ix2 p k) * y (ix2 k q) := by
  subst hD
  exact (Ideal.dotGeneral_apply _ prec .single x y (ix2 p q)).trans (sum_contr M K N x y p q)

end Cert.Lib.PlainDot

end
-- ==== Proof.LibTranspose.lean ====
/-
  A matrix transposed, read at an entry, for any element type and any extents: the transpose of an [a, b] array,
  an array [b, a], holds at (i, j) the operand's entry (j, i).
-/
import Idealize.ShloMosaic.Lib.Pipeline.Value
import Idealize.ShloMosaic.Lib.ValueIdx

noncomputable section

namespace Cert.Lib.Transpose

open Idealize.ShloMosaic Idealize.ShloMosaic.ValueIdx

/-- The transpose (axes swapped) of an [a, b] array reads, at (i, j), the operand at (j, i). -/
theorem transpose_swap_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) :=
  transpose_apply _ x h (ix2 i j) (ix2 j i) (fun d => by
    match d with
    | ⟨0, _⟩ => rfl
    | ⟨1, _⟩ => rfl)

end Cert.Lib.Transpose

end
-- ==== Proof.PayIdeal.lean ====
/-
  The arithmetic of the two kernel bodies, read entry by entry on the extended reals. Each payload is a chain of
  plain matrix products into a zero accumulator, identity shape casts, one entrywise maximum against a zero splat
  and one transpose; at the ideal values a product's entry is the exact sum over the contracted coordinate, the
  maximum is the lattice maximum and a transposed array holds the mirrored entry.
-/
import proofs.«123276_g25769804171_cont_9to1_1144_6_alg».proof.Proof.Gen.KernelIdeal.Skeleton
import proofs.«123276_g25769804171_cont_9to1_1144_6_alg».proof.Proof.Spec
import proofs.«123276_g25769804171_cont_9to1_1144_6_alg».proof.Proof.LibPlainDot
import proofs.«123276_g25769804171_cont_9to1_1144_6_alg».proof.Proof.LibTranspose

noncomputable section

open scoped BigOperators

namespace Cert.KernelIdeal.PayIdeal

open Idealize.ShloMosaic Idealize.ShloMosaic.ValueIdx Cert.KernelIdeal Cert.KernelIdeal.Gen

/-- The first propagation's block: entry (p, q) of x·W1. -/
theorem pay1_apply (x : Vec Ideal S10000x128 .f32) (w1 : Vec Ideal S128x64 .f32) (p : Fin 10000) (q : Fin 64) :
    k0_pay1 (F := Ideal) x w1 (ix2 p q) = ∑ k : Fin 128, x (ix2 p k) * w1 (ix2 k q) := by
  unfold k0_pay1
  rw [shapeCast_self]
  exact Cert.Lib.PlainDot.matmul_zero_apply (M := 10000) (K := 128) (N := 64) _ rfl none x w1 p q

/-- The maximum against the zero splat, at an entry. -/
theorem relu_apply {s : Shape} (v : FVec Ideal s .f32) (i : s.Idx) :
    maximumf v (broadcast s (Scalar.ofBits (F := Ideal) .f32 0x00000000#32)) i = max (v i) 0 := by
  show max (v i) (Ideal.ofBits .f32 0x00000000#32) = max (v i) 0
  rw [Ideal.ofBits_zero_f32]

/-- The second support's block: entry (r, q) of max(a·s, 0)·W2. -/
theorem pay2_apply (a : Vec Ideal S400x10000 .f32) (s : Vec Ideal S10000x64 .f32) (w2 : Vec Ideal S64x16 .f32) (r : Fin 400) (q : Fin 16) :
    k0_pay2 (F := Ideal) a s w2 (ix2 r q) = ∑ k : Fin 64, max (∑ j : Fin 10000, a (ix2 r j) * s (ix2 j k)) 0 * w2 (ix2 k q) := by
  unfold k0_pay2
  rw [shapeCast_self]
  refine (Cert.Lib.PlainDot.matmul_zero_apply (M := 400) (K := 64) (N := 16) _ rfl none _ w2 r q).trans ?_
  refine Finset.sum_congr rfl fun k _ => ?_
  rw [relu_apply, Cert.Lib.PlainDot.matmul_zero_apply (M := 400) (K := 10000) (N := 64)
    dot_S400x10000_S10000x64_S400x64_1_0_0_1_n_n rfl none a s r k]

/-- The embedding's block: entry (r, q) of a·s. -/
theorem pay3_apply (a : Vec Ideal S400x10000 .f32) (s : Vec Ideal S10000x16 .f32) (r : Fin 400) (q : Fin 16) :
    k0_pay3 (F := Ideal) a s (ix2 r q) = ∑ j : Fin 10000, a (ix2 r j) * s (ix2 j q) := by
  unfold k0_pay3
  exact Cert.Lib.PlainDot.matmul_zero_apply (M := 400) (K := 10000) (N := 16) _ rfl none a s r q

/-- The decoder's transposed copy: entry (i, j) is mu's entry (j, i). -/
theorem kpay1_apply (mu : Vec Ideal S10000x16 .f32) (i : Fin 16) (j : Fin 10000) : k1_pay1 (F := Ideal) mu (ix2 i j) = mu (ix2 j i) := by
  unfold k1_pay1
  rw [shapeCast_self, shapeCast_self]
  exact Cert.Lib.Transpose.transpose_swap_apply (a := 10000) (b := 16) mu _ i j

/-- The decoder's block: entry (r, q) of b·mt. -/
theorem kpay2_apply (b : Vec Ideal S400x16 .f32) (mt : Vec Ideal S16x10000 .f32) (r : Fin 400) (q : Fin 10000) :
    k1_pay2 (F := Ideal) b mt (ix2 r q) = ∑ k : Fin 16, b (ix2 r k) * mt (ix2 k q) := by
  unfold k1_pay2
  rw [shapeCast_self]
  exact Cert.Lib.PlainDot.matmul_zero_apply (M := 400) (K := 16) (N := 10000) _ rfl none b mt r q

end Cert.KernelIdeal.PayIdeal

end
-- ==== Proof.R0Value.lean ====
/-
  The first kernel region's output array after its run, on the extended reals: the embedding mu of the
  specification. Point 0 leaves s1 = x·W1 in the first scratch; points s < 25 fill the second scratch with the
  400-row blocks of s2 = max(adj·s1, 0)·W2, block s from adjacency rows 400·s .. 400·s + 399; points t ≥ 25 write
  block t - 25 of mu = adj·s2 to the output, and those 25 blocks tile its 10000 rows.
-/
import proofs.«123276_g25769804171_cont_9to1_1144_6_alg».proof.Proof.R0
import proofs.«123276_g25769804171_cont_9to1_1144_6_alg».proof.Proof.PayIdeal
import proofs.«123276_g25769804171_cont_9to1_1144_6_alg».proof.Proof.Spec

set_option maxRecDepth 16384

noncomputable section

open scoped BigOperators

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

/-! ## The windows' block indices, decided over the grid -/

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = t.val % 25 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)
theorem idx0_4 : ∀ t : Fin cfg0.N, 25 ≤ t.val → win0_4.index t (0 : Fin 2) = t.val - 25 ∧ win0_4.index t (1 : Fin 2) = 0 :=
  (by decide +kernel : ∀ t : Fin grid0.N, _)

/-! ## The input blocks read at an entry -/

variable (V : (c : Dev nD) → (b : Ref sig .tc) → Buf (Elt Ideal) ((c : Thread nD τ).loc b))

/-- The whole of x, at every point. -/
theorem iblk0_0_apply (c : Dev nD) (t : Fin cfg0.N) (p : Fin 10000) (k : Fin 128) :
    iblk0 V c 0 t (ix2 p k) = V c main_arg0 (ix2 p k) := by
  show V c main_arg0 (((cfg0.win 0).blk t).view.emb (ix2 p k)) = _
  refine congrArg (V c main_arg0) (funext fun a => Fin.ext ?_)
  obtain ⟨e0, e1⟩ := idx0_0 t
  match a with
  | ⟨0, _⟩ => show win0_0.index t (0 : Fin 2) * 10000 + 1 * p.val = p.val; omega
  | ⟨1, _⟩ => show win0_0.index t (1 : Fin 2) * 128 + 1 * k.val = k.val; omega

/-- Rows 400·(t mod 25) .. 400·(t mod 25) + 399 of the adjacency. -/
theorem iblk0_1_apply (c : Dev nD) (t : Fin cfg0.N) (r : Fin 400) (j : Fin 10000) (p : Fin 10000)
    (hp : p.val = 400 * (t.val % 25) + r.val) : iblk0 V c 1 t (ix2 r j) = V c main_arg1 (ix2 p j) := by
  show V c main_arg1 (((cfg0.win 1).blk t).view.emb (ix2 r j)) = _
  refine congrArg (V c main_arg1) (funext fun a => Fin.ext ?_)
  obtain ⟨e0, e1⟩ := idx0_1 t
  match a with
  | ⟨0, _⟩ => show win0_1.index t (0 : Fin 2) * 400 + 1 * r.val = p.val; omega
  | ⟨1, _⟩ => show win0_1.index t (1 : Fin 2) * 10000 + 1 * j.val = j.val; omega

/-- The whole of W1, at every point. -/
theorem iblk0_2_apply (c : Dev nD) (t : Fin cfg0.N) (k : Fin 128) (q : Fin 64) :
    iblk0 V c 2 t (ix2 k q) = V c main_arg2 (ix2 k q) := by
  show V c main_arg2 (((cfg0.win 2).blk t).view.emb (ix2 k q)) = _
  refine congrArg (V c main_arg2) (funext fun a => Fin.ext ?_)
  obtain ⟨e0, e1⟩ := idx0_2 t
  match a with
  | ⟨0, _⟩ => show win0_2.index t (0 : Fin 2) * 128 + 1 * k.val = k.val; omega
  | ⟨1, _⟩ => show win0_2.index t (1 : Fin 2) * 64 + 1 * q.val = q.val; omega

/-- The whole of W2, at every point. -/
theorem iblk0_3_apply (c : Dev nD) (t : Fin cfg0.N) (k : Fin 64) (q : Fin 16) :
    iblk0 V c 3 t (ix2 k q) = V c main_arg3 (ix2 k q) := by
  show V c main_arg3 (((cfg0.win 3).blk t).view.emb (ix2 k q)) = _
  refine congrArg (V c main_arg3) (funext fun a => Fin.ext ?_)
  obtain ⟨e0, e1⟩ := idx0_3 t
  match a with
  | ⟨0, _⟩ => show win0_3.index t (0 : Fin 2) * 64 + 1 * k.val = k.val; omega
  | ⟨1, _⟩ => show win0_3.index t (1 : Fin 2) * 16 + 1 * q.val = q.val; omega

/-! ## The scratch buffers and the output blocks are the specification's stages -/

/-- The first scratch holds s1. -/
theorem S1_apply (c : Dev nD) (p : Fin 10000) (k : Fin 64) :
    S1 V c (ix2 p k) = Cert.Spec.s1 (V c main_arg0) (V c main_arg2) p k := by
  unfold S1
  refine (PayIdeal.pay1_apply (iblk0 V c 0 t0) (iblk0 V c 2 t0) p k).trans ?_
  exact Finset.sum_congr rfl fun i _ => by rw [iblk0_0_apply, iblk0_2_apply]

/-- Block s of the second scratch holds rows 400·s .. 400·s + 399 of s2, for s < 25. -/
theorem P2_apply (c : Dev nD) (s : Fin cfg0.N) (hs : s.val < 25) (r : Fin 400) (q : Fin 16) (p : Fin 10000)
    (hp : p.val = 400 * s.val + r.val) :
    P2 V c s (ix2 r q) = Cert.Spec.s2 (V c main_arg0) (V c main_arg1) (V c main_arg2) (V c main_arg3) p q := by
  unfold P2
  refine (PayIdeal.pay2_apply (iblk0 V c 1 s) (S1 V c) (iblk0 V c 3 s) r q).trans ?_
  refine Finset.sum_congr rfl fun k _ => ?_
  rw [iblk0_3_apply]
  refine congrArg (· * V c main_arg3 (ix2 k q)) ?_
  show max _ 0 = max _ 0
  refine congrArg (max · 0) (Finset.sum_congr rfl fun j _ => ?_)
  rw [iblk0_1_apply V c s r j p (by omega), S1_apply]

/-- The second scratch, whole, holds s2. -/
theorem S2_apply (c : Dev nD) (p : Fin 10000) (q : Fin 16) :
    S2 V c (ix2 p q) = Cert.Spec.s2 (V c main_arg0) (V c main_arg1) (V c main_arg2) (V c main_arg3) p q := by
  unfold S2
  have hp : p.val < 10000 := p.isLt
  refine (P2_apply V c _ (by show p.val / 400 < 25; omega) ⟨p.val % 400, Nat.mod_lt _ (by omega)⟩ ⟨q.val, q.isLt⟩ p
    (by show p.val = 400 * (p.val / 400) + p.val % 400; omega)).trans ?_
  rfl

/-- The output block of point t ≥ 25 holds rows 400·(t - 25) .. 400·(t - 25) + 399 of mu. -/
theorem out4_apply (c : Dev nD) (t : Fin cfg0.N) (ht : 25 ≤ t.val) (r : Fin 400) (q : Fin 16) (p : Fin 10000)
    (hp : p.val = 400 * (t.val - 25) + r.val) :
    out4 V c t (ix2 r q) = Cert.Spec.mu (V c main_arg0) (V c main_arg1) (V c main_arg2) (V c main_arg3) p q := by
  unfold out4
  refine (PayIdeal.pay3_apply (iblk0 V c 1 t) (S2 V c) r q).trans ?_
  have h50 := N0lt t
  refine Finset.sum_congr rfl fun j _ => ?_
  rw [iblk0_1_apply V c t r j p (by omega), S2_apply]

/-! ## The output array -/

/-- The embedding as an array: entry (p, q) is the specification's mu at (p, q). -/
def G0 (x : Vec Ideal S10000x128 .f32) (adj : Vec Ideal S10000x10000 .f32) (w1 : Vec Ideal S128x64 .f32) (w2 : Vec Ideal S64x16 .f32) :
    Vec Ideal S10000x16 .f32 := fun j => Cert.Spec.mu x adj w1 w2 (j 0) (j 1)

theorem G0_ix2 (x : Vec Ideal S10000x128 .f32) (adj : Vec Ideal S10000x10000 .f32) (w1 : Vec Ideal S128x64 .f32) (w2 : Vec Ideal S64x16 .f32)
    (p : Fin 10000) (q : Fin 16) : G0 x adj w1 w2 (ix2 p q) = Cert.Spec.mu x adj w1 w2 p q := rfl

/-- What point t ≥ 25 leaves in the output's staging buffer is block t of that array, entry by entry. -/
theorem out4_eq_G0 (c : Dev nD) (t : Fin cfg0.N) (ht : 25 ≤ t.val) (y : S400x16.Idx) :
    out4 V c t y = G0 (V c main_arg0) (V c main_arg1) (V c main_arg2) (V c main_arg3) (((cfg0.win 4).blk t).view.emb y) := by
  obtain ⟨r, q, rfl⟩ : ∃ (r : Fin 400) (q : Fin 16), y = ix2 r q := ⟨y 0, y 1, eq_ix2 y⟩
  obtain ⟨e0, e1⟩ := idx0_4 t ht
  have h0 : ((((cfg0.win 4).blk t).view.emb (ix2 r q)) 0).val = 400 * (t.val - 25) + r.val := by
    show win0_4.index t (0 : Fin 2) * 400 + 1 * r.val = _; omega
  have h1 : (((cfg0.win 4).blk t).view.emb (ix2 r q)) 1 = q := Fin.ext (by
    show win0_4.index t (1 : Fin 2) * 16 + 1 * q.val = q.val; omega)
  exact (out4_apply V c t ht r q _ h0).trans (congrArg (Cert.Spec.mu (V c main_arg0) (V c main_arg1) (V c main_arg2) (V c main_arg3) _) h1.symm)

/-- What point t ≥ 25 writes back is block t of that array. -/
theorem flushed0_4_eq (c : Dev nD) (t : Fin cfg0.N) (ht : 25 ≤ t.val) :
    (dat0 (F := Ideal) V c).flushed 4 t
      = ((cfg0.win 4).blk t).view.read (Elt Ideal) (G0 (V c main_arg0) (V c main_arg1) (V c main_arg2) (V c main_arg3)) := by
  show (cfg0.win 4).cut (cfg0.grid.coords t) ((dat0 (F := Ideal) V c).after 4 t) = _
  rw [after0_4]
  funext y
  exact out4_eq_G0 V c t ht y

/-- An index of the output array is in point t's block iff each coordinate is in the block's range on its axis. -/
theorem mem_blk0_4 (t : Fin cfg0.N) (i : S10000x16.Idx) :
    i ∈ ((cfg0.win 4).blk t).view.set ↔ ∀ a : Fin 2, win0_4.index t a * S400x16.size a ≤ (i a).val ∧ (i a).val < win0_4.index t a * S400x16.size a + S400x16.size a := by
  show i ∈ ((View.whole main_v0).slice (win0_4.rect t)).set ↔ _
  rw [View.set_slice_whole, Rect.mem_set_unit]
  exact Iff.rfl

/-- Row p of the output is written back by point 25 + p / 400. -/
theorem cover0_4 (i : S10000x16.Idx) : ∃ t : Fin cfg0.N, (cfg0.win 4).flush t = true ∧ i ∈ ((cfg0.win 4).blk t).view.set := by
  have hi0 : (i 0).val < 10000 := (i 0).isLt
  have hi1 : (i 1).val < 16 := (i 1).isLt
  have ht : 25 ≤ 25 + (i 0).val / 400 := by omega
  refine ⟨⟨25 + (i 0).val / 400, lt_of_lt_of_eq (by omega : 25 + (i 0).val / 400 < 50) (show cfg0.N = 50 from N_0).symm⟩, (flush0_4 _).mpr ht, ?_⟩
  obtain ⟨e0, e1⟩ := idx0_4 ⟨25 + (i 0).val / 400, lt_of_lt_of_eq (by omega : 25 + (i 0).val / 400 < 50) (show cfg0.N = 50 from N_0).symm⟩ ht
  have e0' : win0_4.index ⟨25 + (i 0).val / 400, lt_of_lt_of_eq (by omega : 25 + (i 0).val / 400 < 50) (show cfg0.N = 50 from N_0).symm⟩ (0 : Fin 2) = 25 + (i 0).val / 400 - 25 := e0
  rw [mem_blk0_4]
  intro a
  match a with
  | ⟨0, _⟩ => show win0_4.index _ (0 : Fin 2) * 400 ≤ (i 0).val ∧ (i 0).val < win0_4.index _ (0 : Fin 2) * 400 + 400; omega
  | ⟨1, _⟩ => show win0_4.index _ (1 : Fin 2) * 16 ≤ (i 1).val ∧ (i 1).val < win0_4.index _ (1 : Fin 2) * 16 + 16; omega

/-- The output array after the region's run is the embedding of the arrays the region found. -/
theorem final0 (c : Dev nD) :
    (dat0 (F := Ideal) V c).arrAt 4 cfg0.N = G0 (V c main_arg0) (V c main_arg1) (V c main_arg2) (V c main_arg3) :=
  (dat0 (F := Ideal) V c).arrAt_eq_of_cover 4 (G0 (V c main_arg0) (V c main_arg1) (V c main_arg2) (V c main_arg3))
    (fun t hf => flushed0_4_eq V c t ((flush0_4 t).mp hf)) cover0_4

end Cert.KernelIdeal.Hand

end
-- ==== Proof.R1Value.lean ====
/-
  The second pallas_call's output array, read entry by entry on the extended reals: every grid point writes back
  400 rows of the product of its input with the transposed copy the first point left in the scratch, the 25 row
  blocks tile the array, so the array ends holding, at entry (p, q), the inner product of rows p and q of the input.
-/
import proofs.«123276_g25769804171_cont_9to1_1144_6_alg».proof.Proof.R1
import proofs.«123276_g25769804171_cont_9to1_1144_6_alg».proof.Proof.PayIdeal
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

section Region1Value
-- the TensorCore's buffer contents when the region is entered, on the extended reals
variable (V : (c : Dev nD) → (b : Ref sig .tc) → Buf (Elt Ideal) ((c : Thread nD τ).loc b))

/-- The Gram matrix of the rows of `mu`: entry (p, q) is the inner product of rows p and q. -/
def G1 (mu : Vec Ideal S10000x16 .f32) : Vec Ideal S10000x10000 .f32 :=
  fun j => ∑ k : Fin 16, mu (ix2 (j 0) k) * mu (ix2 (j 1) k)

theorem G1_ix2 (mu : Vec Ideal S10000x16 .f32) (p q : Fin 10000) :
    G1 mu (ix2 p q) = ∑ k : Fin 16, mu (ix2 p k) * mu (ix2 q k) := rfl

/-- The printed index maps and the body's row offset, decided over the grid: the input's block never moves, the
    output's block is row block `t`, the body reads the rows from `400 t`. -/
theorem idx_facts1 : ∀ t : Fin cfg1.N, win1_0.index t (0 : Fin 2) = 0 ∧ win1_0.index t (1 : Fin 2) = 0
    ∧ win1_1.index t (0 : Fin 2) = t.val ∧ win1_1.index t (1 : Fin 2) = 0
    ∧ k1_off1 (grid1.coords t) (0 : Fin 2) = 400 * t.val ∧ k1_off1 (grid1.coords t) (1 : Fin 2) = 0 :=
  (by decide +kernel : ∀ t : Fin grid1.N, _)

/-- The input window's block at any point is the whole input array. -/
theorem iblk1_eq (c : Dev nD) (t : Fin cfg1.N) :
    (iblk1 V c 0 t : Vec Ideal S10000x16 .f32) = (V c main_v0 : Vec Ideal S10000x16 .f32) := by
  obtain ⟨e0, e1, -, -, -, -⟩ := idx_facts1 t
  funext y
  show V c main_v0 (((cfg1.win 0).blk t).view.emb y) = V c main_v0 y
  refine congrArg (V c main_v0) ?_
  funext a; apply Fin.ext
  match a with
  | ⟨0, _⟩ => show win1_0.index t (0 : Fin 2) * 10000 + 1 * (y 0).val = (y 0).val; omega
  | ⟨1, _⟩ => show win1_0.index t (1 : Fin 2) * 16 + 1 * (y 1).val = (y 1).val; omega

/-- What the scratch holds after the first point is the transpose payload of the input array. -/
theorem mut1_eq_pay (c : Dev nD) : mut1 V c = k1_pay1 (F := Ideal) (V c main_v0 : Vec Ideal S10000x16 .f32) := by
  unfold mut1; rw [iblk1_eq V c t0_1]

/-- What the body leaves in the output's staging buffer at point `t`, over the input array. -/
theorem out1_eq (c : Dev nD) (t : Fin cfg1.N) :
    out1 V c t = k1_pay2 (F := Ideal) (View.ld (V c main_v0 : Vec Ideal S10000x16 .f32) (rB1 (grid1.coords t)))
      (k1_pay1 (F := Ideal) (V c main_v0 : Vec Ideal S10000x16 .f32)) := by
  unfold out1; rw [mut1_eq_pay V c, iblk1_eq V c t]

/-- THE PRODUCT PAYLOAD AT AN ENTRY: 400 rows of `mu` from row `400 s` times the transposed copy of `mu`, at the
    block's entry `j`, is the Gram matrix's entry at the array index `i` that sits `400 s` rows below `j`. -/
theorem pay_entry1 (mu : Vec Ideal S10000x16 .f32) (off : Fin 2 → Nat) (inb : ∀ a, off a + S400x16.size a ≤ S10000x16.size a)
    (s : Nat) (h0 : off 0 = 400 * s) (h1 : off 1 = 0) (j : S400x10000.Idx) (i : S10000x10000.Idx)
    (hi0 : (i 0).val = s * 400 + (j 0).val) (hi1 : (i 1).val = (j 1).val) :
    k1_pay2 (F := Ideal) (View.ld mu (Rect.unit (s := S10000x16) off S400x16.size inb)) (k1_pay1 (F := Ideal) mu) j = G1 mu i := by
  obtain ⟨r, q, rfl⟩ : ∃ (r : Fin 400) (q : Fin 10000), j = ix2 r q := ⟨j 0, j 1, eq_ix2 j⟩
  obtain ⟨p, q', rfl⟩ : ∃ (p q' : Fin 10000), i = ix2 p q' := ⟨i 0, i 1, eq_ix2 i⟩
  have hp : p.val = s * 400 + r.val := hi0
  have hq : q' = q := Fin.ext hi1
  subst hq
  rw [PayIdeal.kpay2_apply, G1_ix2]
  refine Finset.sum_congr rfl fun k _ => ?_
  rw [PayIdeal.kpay1_apply]
  have hidx : (Rect.unit (s := S10000x16) off S400x16.size inb).idx (ix2 r k) = ix2 p k := by
    funext a; apply Fin.ext
    match a with
    | ⟨0, _⟩ => show off 0 + 1 * r.val = p.val; omega
    | ⟨1, _⟩ => show off 1 + 1 * k.val = k.val; omega
  show mu ((Rect.unit (s := S10000x16) off S400x16.size inb).idx (ix2 r k)) * _ = _
  rw [hidx]

/-- WHAT POINT `t` WRITES BACK is row block `t` of the Gram matrix of the input array. -/
theorem flushed1_eq (c : Dev nD) (t : Fin cfg1.N) :
    (dat1 (F := Ideal) V c).flushed 1 t = ((cfg1.win 1).blk t).view.read (Elt Ideal) (G1 (V c main_v0)) := by
  show (cfg1.win 1).cut (grid1.coords t) ((dat1 V c).after 1 t) = _
  rw [after1_1, out1_eq]
  obtain ⟨-, -, e2, e3, e4, e5⟩ := idx_facts1 t
  funext j
  show k1_pay2 (F := Ideal) (View.ld (V c main_v0 : Vec Ideal S10000x16 .f32) (rB1 (grid1.coords t)))
      (k1_pay1 (F := Ideal) (V c main_v0 : Vec Ideal S10000x16 .f32)) j
    = G1 (V c main_v0) (((cfg1.win 1).blk t).view.emb j)
  refine pay_entry1 (V c main_v0) _ _ t.val e4 e5 j _ ?_ ?_
  · show win1_1.index t (0 : Fin 2) * 400 + 1 * (j 0).val = t.val * 400 + (j 0).val; omega
  · show win1_1.index t (1 : Fin 2) * 10000 + 1 * (j 1).val = (j 1).val; omega

/-- An index of the array is in point `t`'s block iff each coordinate is in the block's range on its axis. -/
theorem mem_blk1 (t : Fin cfg1.N) (i : S10000x10000.Idx) :
    i ∈ ((cfg1.win 1).blk t).view.set ↔ ∀ a : Fin 2, win1_1.index t a * S400x10000.size a ≤ (i a).val ∧ (i a).val < win1_1.index t a * S400x10000.size a + S400x10000.size a := by
  show i ∈ ((View.whole main_v1).slice (win1_1.rect t)).set ↔ _
  rw [View.set_slice_whole, Rect.mem_set_unit]
  exact Iff.rfl

/-- The 25 row blocks tile the array: row `r` is in the block of point `r / 400`. -/
theorem cover1 (i : S10000x10000.Idx) :
    ∃ t : Fin cfg1.N, (cfg1.win 1).flush t = true ∧ i ∈ ((cfg1.win 1).blk t).view.set := by
  have hi0 : (i 0).val < 10000 := (i 0).isLt
  have hi1 : (i 1).val < 10000 := (i 1).isLt
  have hlt : (i 0).val / 400 < cfg1.N := by rw [show cfg1.N = 25 from N_1]; omega
  obtain ⟨t, ht⟩ : ∃ t : Fin cfg1.N, t.val = (i 0).val / 400 := ⟨⟨_, hlt⟩, rfl⟩
  refine ⟨t, flush1_1 t, ?_⟩
  rw [mem_blk1]
  obtain ⟨-, -, e2, e3, -, -⟩ := idx_facts1 t
  intro a
  match a with
  | ⟨0, _⟩ => show win1_1.index t (0 : Fin 2) * 400 ≤ (i 0).val ∧ (i 0).val < win1_1.index t (0 : Fin 2) * 400 + 400; omega
  | ⟨1, _⟩ => show win1_1.index t (1 : Fin 2) * 10000 ≤ (i 1).val ∧ (i 1).val < win1_1.index t (1 : Fin 2) * 10000 + 10000; omega

/-- THE OUTPUT ARRAY after the run: the Gram matrix of the rows of the input array as the region finds it. -/
theorem final1 (c : Dev nD) : (dat1 (F := Ideal) V c).arrAt 1 cfg1.N = G1 (V c main_v0) :=
  (dat1 (F := Ideal) V c).arrAt_eq_of_cover 1 (G1 (V c main_v0)) (fun t _ => flushed1_eq V c t) cover1

end Region1Value

end Cert.KernelIdeal.Hand

end
-- ==== Proof.RefValue.lean ====
/-
  The reference's result, read entry by entry on the extended reals, is the specification's auto-encoder output.
  Each of the reference's products is the plain sum over the contracted coordinate, its relu the maximum with the
  real zero, and its explicit transpose holds the mirrored entry; read one stage at a time, from the first
  propagation to the decoder, the stages are the specification's s1, hid, s2, mu and out.
-/
import proofs.«123276_g25769804171_cont_9to1_1144_6_alg».proof.Proof.Gen.ReferenceIdeal.Read
import proofs.«123276_g25769804171_cont_9to1_1144_6_alg».proof.Proof.Spec

noncomputable section

open scoped BigOperators

namespace Cert.ReferenceIdeal.RefValue

open Idealize.ShloMosaic Idealize.ShloMosaic.ValueIdx Cert.ReferenceIdeal Cert.ReferenceIdeal.Gen Cert.ReferenceIdeal.Read

/-! ## The operand indices of a plain product at entry (p, q) -/

theorem lidx0 (p : Fin 10000) (q : Fin 64) (k : Fin 128) : lidx_main_v0 (ix2 p q) k = ix2 p k :=
  funext fun a => Fin.ext (by match a with | ⟨0, _⟩ => rfl | ⟨1, _⟩ => rfl)
theorem ridx0 (p : Fin 10000) (q : Fin 64) (k : Fin 128) : ridx_main_v0 (ix2 p q) k = ix2 k q :=
  funext fun a => Fin.ext (by match a with | ⟨0, _⟩ => rfl | ⟨1, _⟩ => rfl)
theorem lidx1 (p : Fin 10000) (q : Fin 64) (k : Fin 10000) : lidx_main_v1 (ix2 p q) k = ix2 p k :=
  funext fun a => Fin.ext (by match a with | ⟨0, _⟩ => rfl | ⟨1, _⟩ => rfl)
theorem ridx1 (p : Fin 10000) (q : Fin 64) (k : Fin 10000) : ridx_main_v1 (ix2 p q) k = ix2 k q :=
  funext fun a => Fin.ext (by match a with | ⟨0, _⟩ => rfl | ⟨1, _⟩ => rfl)
theorem lidx3 (p : Fin 10000) (q : Fin 16) (k : Fin 64) : lidx_main_v3 (ix2 p q) k = ix2 p k :=
  funext fun a => Fin.ext (by match a with | ⟨0, _⟩ => rfl | ⟨1, _⟩ => rfl)
theorem ridx3 (p : Fin 10000) (q : Fin 16) (k : Fin 64) : ridx_main_v3 (ix2 p q) k = ix2 k q :=
  funext fun a => Fin.ext (by match a with | ⟨0, _⟩ => rfl | ⟨1, _⟩ => rfl)
theorem lidx4 (p : Fin 10000) (q : Fin 16) (k : Fin 10000) : lidx_main_v4 (ix2 p q) k = ix2 p k :=
  funext fun a => Fin.ext (by match a with | ⟨0, _⟩ => rfl | ⟨1, _⟩ => rfl)
theorem ridx4 (p : Fin 10000) (q : Fin 16) (k : Fin 10000) : ridx_main_v4 (ix2 p q) k = ix2 k q :=
  funext fun a => Fin.ext (by match a with | ⟨0, _⟩ => rfl | ⟨1, _⟩ => rfl)
theorem idx5 (i : Fin 16) (j : Fin 10000) : idx_main_v5 (ix2 i j) = ix2 j i :=
  funext fun a => Fin.ext (by match a with | ⟨0, _⟩ => rfl | ⟨1, _⟩ => rfl)
theorem lidx6 (p q : Fin 10000) (k : Fin 16) : lidx_main_v6 (ix2 p q) k = ix2 p k :=
  funext fun a => Fin.ext (by match a with | ⟨0, _⟩ => rfl | ⟨1, _⟩ => rfl)
theorem ridx6 (p q : Fin 10000) (k : Fin 16) : ridx_main_v6 (ix2 p q) k = ix2 k q :=
  funext fun a => Fin.ext (by match a with | ⟨0, _⟩ => rfl | ⟨1, _⟩ => rfl)

/-! ## The stages, one at a time -/

variable (x : Vec Ideal S10000x128 .f32) (adj : Vec Ideal S10000x10000 .f32) (w1 : Vec Ideal S128x64 .f32) (w2 : Vec Ideal S64x16 .f32)

/-- The first propagation is s1. -/
theorem v0_ix2 (p : Fin 10000) (q : Fin 64) : val_main_v0 (F := Ideal) x w1 (ix2 p q) = Cert.Spec.s1 x w1 p q := by
  rw [val_main_v0_apply]
  exact Finset.sum_congr rfl fun k _ => by rw [lidx0, ridx0]

/-- The zero splat the relu compares with is the real zero. -/
theorem zero_ix (i : S10000x64.Idx) : val_main_call0_v0 (F := Ideal) i = 0 := by
  rw [val_main_call0_v0_apply, val_main_call0_cst_apply]
  exact Ideal.ofBits_zero_f32

/-- The hidden layer is hid. -/
theorem v2_ix2 (p : Fin 10000) (q : Fin 64) : val_main_v2 (F := Ideal) x adj w1 (ix2 p q) = Cert.Spec.hid x adj w1 p q := by
  rw [val_main_v2_apply, zero_ix, val_main_v1_apply]
  show max _ 0 = max _ 0
  refine congrArg (max · 0) (Finset.sum_congr rfl fun k _ => ?_)
  rw [lidx1, ridx1, v0_ix2]

/-- The second support is s2. -/
theorem v3_ix2 (p : Fin 10000) (q : Fin 16) : val_main_v3 (F := Ideal) x adj w1 w2 (ix2 p q) = Cert.Spec.s2 x adj w1 w2 p q := by
  rw [val_main_v3_apply]
  exact Finset.sum_congr rfl fun k _ => by rw [lidx3, ridx3, v2_ix2]

/-- The embedding is mu. -/
theorem v4_ix2 (p : Fin 10000) (q : Fin 16) : val_main_v4 (F := Ideal) x adj w1 w2 (ix2 p q) = Cert.Spec.mu x adj w1 w2 p q := by
  rw [val_main_v4_apply]
  exact Finset.sum_congr rfl fun k _ => by rw [lidx4, ridx4, v3_ix2]

/-- The transposed embedding holds mu's mirrored entry. -/
theorem v5_ix2 (i : Fin 16) (j : Fin 10000) : val_main_v5 (F := Ideal) x adj w1 w2 (ix2 i j) = Cert.Spec.mu x adj w1 w2 j i := by
  rw [val_main_v5_apply, idx5, v4_ix2]

/-- The decoder is out. -/
theorem v6_ix2 (p q : Fin 10000) : val_main_v6 (F := Ideal) x adj w1 w2 (ix2 p q) = Cert.Spec.out x adj w1 w2 p q := by
  rw [val_main_v6_apply]
  exact Finset.sum_congr rfl fun k _ => by rw [lidx6, ridx6, v4_ix2, v5_ix2]

/-! ## The reference's result is the specification -/

/-- The auto-encoder's output as an array: entry (p, q) is the specification's out at (p, q). -/
def G : Vec Ideal S10000x10000 .f32 := fun j => Cert.Spec.out x adj w1 w2 (j 0) (j 1)

theorem G_ix2 (p q : Fin 10000) : G x adj w1 w2 (ix2 p q) = Cert.Spec.out x adj w1 w2 p q := rfl

/-- The composed term the reference's run ends with is that array. -/
theorem result_eq (x : FVec Ideal S10000x128 .f32) (adj : FVec Ideal S10000x10000 .f32) (w1 : FVec Ideal S128x64 .f32)
    (w2 : FVec Ideal S64x16 .f32) :
    Host.dotGeneral (F := Ideal) dot_S10000x16_S16x10000_S10000x10000_1_0_0_1_n_n none (Host.dotGeneral (F := Ideal) dot_S10000x10000_S10000x16_S10000x16_1_0_0_1_n_n none (adj) (Host.dotGeneral (F := Ideal) dot_S10000x64_S64x16_S10000x16_1_0_0_1_n_n none (maximumf (Host.dotGeneral (F := Ideal) dot_S10000x10000_S10000x64_S10000x64_1_0_0_1_n_n none (adj) (Host.dotGeneral (F := Ideal) dot_S10000x128_S128x64_S10000x64_1_0_0_1_n_n none (x) (w1))) (broadcastInDim S10000x64 ![] bcast_S_S10000x64 (constant (F := Ideal) S_ .f32 0x00000000#32))) (w2))) (transpose S16x10000 [1, 0] (Host.dotGeneral (F := Ideal) dot_S10000x10000_S10000x16_S10000x16_1_0_0_1_n_n none (adj) (Host.dotGeneral (F := Ideal) dot_S10000x64_S64x16_S10000x16_1_0_0_1_n_n none (maximumf (Host.dotGeneral (F := Ideal) dot_S10000x10000_S10000x64_S10000x64_1_0_0_1_n_n none (adj) (Host.dotGeneral (F := Ideal) dot_S10000x128_S128x64_S10000x64_1_0_0_1_n_n none (x) (w1))) (broadcastInDim S10000x64 ![] bcast_S_S10000x64 (constant (F := Ideal) S_ .f32 0x00000000#32))) (w2))) transposes_S10000x16_S16x10000_1_0)
      = G x adj w1 w2 := by
  refine (val_main_v6_eq (F := Ideal) x adj w1 w2).trans ?_
  funext j
  obtain ⟨p, q, rfl⟩ : ∃ (p q : Fin 10000), j = ix2 p q := ⟨j 0, j 1, eq_ix2 j⟩
  exact (v6_ix2 x adj w1 w2 p q).trans (G_ix2 x adj w1 w2 p q).symm

end Cert.ReferenceIdeal.RefValue

end
-- ==== Proof.Bridge.lean ====
/-
  The kernel's result is the reference's: the second region forms, from the array mu the first region leaves, the
  products of mu's rows, and the first region's mu is the specification's embedding; the reference's result is the
  specification's output, which is by definition the same sum of products of the embedding's rows.
-/
import proofs.«123276_g25769804171_cont_9to1_1144_6_alg».proof.Proof.Run
import proofs.«123276_g25769804171_cont_9to1_1144_6_alg».proof.Proof.R0Value
import proofs.«123276_g25769804171_cont_9to1_1144_6_alg».proof.Proof.R1Value
import proofs.«123276_g25769804171_cont_9to1_1144_6_alg».proof.Proof.RefValue

set_option maxRecDepth 16384

noncomputable section

open scoped BigOperators

namespace Cert.KernelIdeal.Hand

open Idealize.ShloMosaic Idealize.ShloMosaic.TcCoe Idealize.ShloMosaic.ValueIdx
open Idealize.SL.Sem
open Cert.KernelIdeal Cert.KernelIdeal.Gen

/-- The rows' products of the specification's embedding are the specification's output. -/
theorem G1_G0 (x : Vec Ideal S10000x128 .f32) (adj : Vec Ideal S10000x10000 .f32) (w1 : Vec Ideal S128x64 .f32) (w2 : Vec Ideal S64x16 .f32) :
    G1 (G0 x adj w1 w2) = Cert.ReferenceIdeal.RefValue.G x adj w1 w2 := by
  funext j
  obtain ⟨p, q, rfl⟩ : ∃ (p q : Fin 10000), j = ix2 p q := ⟨j 0, j 1, eq_ix2 j⟩
  rw [G1_ix2, Cert.ReferenceIdeal.RefValue.G_ix2]
  unfold Cert.Spec.out
  exact Finset.sum_congr rfl fun k _ => by rw [G0_ix2, G0_ix2]

/-- The result buffer after the kernel's run holds the specification's output of the launch contents of the arguments. -/
theorem kernel_value (m : (ℓ : Loc nD τ sig) → Buf (Elt Ideal) ℓ) (ρ : Dev nD → PrngReg) (c : Dev nD) :
    (dat1 (F := Ideal) (VV1 m ρ) c).arrAt 1 cfg1.N
      = Cert.ReferenceIdeal.RefValue.G (m ((c.tc : Thread nD τ).loc main_arg0)) (m ((c.tc : Thread nD τ).loc main_arg1))
          (m ((c.tc : Thread nD τ).loc main_arg2)) (m ((c.tc : Thread nD τ).loc main_arg3)) := by
  rw [final1, VV1_main_v0, final0, VV0_main_arg0, VV0_main_arg1, VV0_main_arg2, VV0_main_arg3]
  exact G1_G0 _ _ _ _

end Cert.KernelIdeal.Hand

end
-- ==== Proof.K.R0Body.lean ====
import proofs.«123276_g25769804171_cont_9to1_1144_6_alg».proof.Proof.Gen.Kernel.Launch
import proofs.«123276_g25769804171_cont_9to1_1144_6_alg».proof.Proof.Gen.Kernel.Skeleton
import proofs.«123276_g25769804171_cont_9to1_1144_6_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel's body, case by case

The body has three conditionals on the grid coordinate s: at s = 0 it fills the first scratch with x·W1; while
s < 25 it stores the 400 rows at offset 400·s of the second scratch, computed from the adjacency block, the first
scratch and W2; from s = 25 on it stores the output block computed from the adjacency block and the second
scratch. Each of the three control cases the grid meets is run once, over any whole memrefs and any contents. -/

/-- The offsets ![0, 0] are zero on every axis. -/
theorem hz2 : (![0, 0] : Fin 2 → ℕ) = fun _ => 0 := funext fun a => by
  match a with
  | ⟨0, _⟩ => rfl
  | ⟨1, _⟩ => rfl

/-- A load of a whole buffer through the rectangle at offset zero of the buffer's own size reads its contents. -/
theorem readAt_unread_zero {S : Shape} {e : EltTy} {arg : Memref sig .tc .vmem S e} (h : arg.IsWhole) {off : Fin S.rank → ℕ}
    (hz : off = fun _ => 0) (inb : ∀ a, off a + S.size a ≤ S.size a) (x : S.Idx → Elt F e) :
    View.readAt (Elt F) arg.view (Rect.unit off S.size inb).toLoadRect (h.unread x) = x := by
  rw [View.readAt_eq_ld, h.read_unread]; exact View.ld_unit_zero hz inb x

/-- The condition of the first conditional, s = 0, as the body computes it. -/
abbrev cond0_1 (i : grid0.Coords) : Prop :=
  (Scalar.cmpi .ne (Scalar.extui (Scalar.cmpi .eq (BitVec.ofNat 32 (i 0).val) 0#32)) 0#32) = 1#1

/-- What a buffer of 10000 rows holds after 400 of its rows, at the offsets the body computes, are overwritten. -/
def upd7 (arg7 : Memref sig .tc .vmem S10000x16 .f32) (harg7 : arg7.IsWhole) (i : grid0.Coords) (h2 : k0_cond2 i = 1#1)
    (x7 : Vec F S10000x16 .f32) (p : Vec F S400x16 .f32) : Vec F S10000x16 .f32 :=
  arg7.view.read (Elt F) (arg7.view.writes (Elt F) (harg7.unread x7)
    [⟨Rect.unit (s := S10000x16) (k0_off1 i) S400x16.size (k0_off1_inb i h2), p⟩])

set_option maxHeartbeats 1000000 in
/-- Case s = 0: the first scratch is filled with the product of the first and third operands, and rows 0..399 of the
    second scratch with the payload of the adjacency block, THAT product and the fourth operand. -/
theorem run0_A (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x64 .f32) (harg3 : arg3.IsWhole) (arg4 : Memref sig .tc .vmem S64x16 .f32) (harg4 : arg4.IsWhole)
    (arg5 : Memref sig .tc .vmem S400x16 .f32) (harg5 : arg5.IsWhole) (arg6 : Memref sig .tc .vmem S10000x64 .f32) (harg6 : arg6.IsWhole)
    (arg7 : Memref sig .tc .vmem S10000x16 .f32) (harg7 : arg7.IsWhole)
    (hc1 : cond0_1 i) (hc2 : k0_cond2 i = 1#1) (hc3 : ¬ k0_cond3 i = 1#1)
    (x0 : Vec F S10000x128 .f32) (x1 : Vec F S400x10000 .f32) (x2 : Vec F S128x64 .f32) (x3 : Vec F S64x16 .f32)
    (x4 : Vec F S400x16 .f32) (x6 : Vec F S10000x64 .f32) (x7 : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x6 ∗ owns (c : Thread nD τ) arg7 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k0_pay1 x0 x2) ∗ owns (c : Thread nD τ) arg7 fullShare (upd7 arg7 harg7 i hc2 x7 (k0_pay2 x1 (k0_pay1 x0 x2) x3))) -∗ K ⟨⟩))
      ⊢ wp frame (wpE (defs₀ (F := F)) Variants.none c none) E (cc0__ab_body i arg1 harg1 arg2 harg2 arg3 harg3 arg4 harg4 arg5 harg5 arg6 harg6 arg7 harg7) K := by
  simp only [cc0__ab_body_eq_skeleton]; unfold cc0__ab_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf6; obtain rfl := harg7.eq_unread hf7
  clear hf0 hf1 hf2 hf3 hf4 hf6 hf7
  sl_exec (disch := first | exact hc1 | exact hc2 | exact hc3)
  sl_step
  sl_unfold_run_names
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr
    swap; · iexact H6
    ipureintro
    rw [readAt_unread_zero harg1 hz2, readAt_unread_zero harg3 hz2]
    exact (View.read_writes_eq_canon _ _ _ (fun y => View.cover_of_tiled [⟨_, _⟩] S10000x64.size (by rfl) y)).trans
      (View.canon_unit_zero hz2 _ _)
  iexists _; isplitr
  swap; · iexact H7
  ipureintro
  rw [readAt_unread_zero harg1 hz2, readAt_unread_zero harg3 hz2, readAt_unread_zero harg2 hz2, readAt_unread_zero harg4 hz2,
    View.readCov_unit_zero _ hz2]
  rfl

set_option maxHeartbeats 1000000 in
/-- Case 0 < s < 25: rows 400·s .. 400·s + 399 of the second scratch are overwritten; the first scratch is read. -/
theorem run0_B (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x64 .f32) (harg3 : arg3.IsWhole) (arg4 : Memref sig .tc .vmem S64x16 .f32) (harg4 : arg4.IsWhole)
    (arg5 : Memref sig .tc .vmem S400x16 .f32) (harg5 : arg5.IsWhole) (arg6 : Memref sig .tc .vmem S10000x64 .f32) (harg6 : arg6.IsWhole)
    (arg7 : Memref sig .tc .vmem S10000x16 .f32) (harg7 : arg7.IsWhole)
    (hc1 : ¬ cond0_1 i) (hc2 : k0_cond2 i = 1#1) (hc3 : ¬ k0_cond3 i = 1#1)
    (x0 : Vec F S10000x128 .f32) (x1 : Vec F S400x10000 .f32) (x2 : Vec F S128x64 .f32) (x3 : Vec F S64x16 .f32)
    (x4 : Vec F S400x16 .f32) (x6 : Vec F S10000x64 .f32) (x7 : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x6 ∗ owns (c : Thread nD τ) arg7 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare x6 ∗ owns (c : Thread nD τ) arg7 fullShare (upd7 arg7 harg7 i hc2 x7 (k0_pay2 x1 x6 x3))) -∗ K ⟨⟩))
      ⊢ wp frame (wpE (defs₀ (F := F)) Variants.none c none) E (cc0__ab_body i arg1 harg1 arg2 harg2 arg3 harg3 arg4 harg4 arg5 harg5 arg6 harg6 arg7 harg7) K := by
  simp only [cc0__ab_body_eq_skeleton]; unfold cc0__ab_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf6; obtain rfl := harg7.eq_unread hf7
  clear hf0 hf1 hf2 hf3 hf4 hf6 hf7
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H6]
  · iexists _; isplitr; · ipureintro; exact harg6.read_unread _
    iexact H6
  iexists _; isplitr
  swap; · iexact H7
  ipureintro
  rw [readAt_unread_zero harg2 hz2, readAt_unread_zero harg6 hz2, readAt_unread_zero harg4 hz2]
  rfl

set_option maxHeartbeats 1000000 in
/-- Case s ≥ 25: the output block is the product of the adjacency block with the second scratch; both scratches are
    only read. -/
theorem run0_C (c : Dev nD) (E : Set ℕ) (i : grid0.Coords)
    (arg1 : Memref sig .tc .vmem S10000x128 .f32) (harg1 : arg1.IsWhole) (arg2 : Memref sig .tc .vmem S400x10000 .f32) (harg2 : arg2.IsWhole)
    (arg3 : Memref sig .tc .vmem S128x64 .f32) (harg3 : arg3.IsWhole) (arg4 : Memref sig .tc .vmem S64x16 .f32) (harg4 : arg4.IsWhole)
    (arg5 : Memref sig .tc .vmem S400x16 .f32) (harg5 : arg5.IsWhole) (arg6 : Memref sig .tc .vmem S10000x64 .f32) (harg6 : arg6.IsWhole)
    (arg7 : Memref sig .tc .vmem S10000x16 .f32) (harg7 : arg7.IsWhole)
    (hc1 : ¬ cond0_1 i) (hc2 : ¬ k0_cond2 i = 1#1) (hc3 : k0_cond3 i = 1#1)
    (x0 : Vec F S10000x128 .f32) (x1 : Vec F S400x10000 .f32) (x2 : Vec F S128x64 .f32) (x3 : Vec F S64x16 .f32)
    (x4 : Vec F S400x16 .f32) (x6 : Vec F S10000x64 .f32) (x7 : Vec F S10000x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x6 ∗ owns (c : Thread nD τ) arg7 fullShare x7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay3 x1 x7)
            ∗ owns (c : Thread nD τ) arg6 fullShare x6 ∗ owns (c : Thread nD τ) arg7 fullShare x7) -∗ K ⟨⟩))
      ⊢ wp frame (wpE (defs₀ (F := F)) Variants.none c none) E (cc0__ab_body i arg1 harg1 arg2 harg2 arg3 harg3 arg4 harg4 arg5 harg5 arg6 harg6 arg7 harg7) K := by
  simp only [cc0__ab_body_eq_skeleton]; unfold cc0__ab_body_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf6; obtain rfl := harg7.eq_unread hf7
  clear hf0 hf1 hf2 hf3 hf4 hf6 hf7
  sl_exec (disch := first | exact hc1 | exact hc2 | exact hc3)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    rw [readAt_unread_zero harg2 hz2, readAt_unread_zero harg7 hz2]
    exact (View.read_writes_eq_canon _ _ _ (fun y => View.cover_of_tiled [⟨_, _⟩] S400x16.size (by rfl) y)).trans
      (View.canon_unit_zero hz2 _ _)
  isplitl [H6]
  · iexists _; isplitr; · ipureintro; exact harg6.read_unread _
    iexact H6
  iexists _; isplitr; · ipureintro; exact harg7.read_unread _
  iexact H7

end Cert.Kernel.Hand

end
-- ==== Proof.K.R0.lean ====
import proofs.«123276_g25769804171_cont_9to1_1144_6_alg».proof.Proof.K.R0Body
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel region: what its buffers hold point by point

Stated at a parameter `V`, the contents of the core's unscoped buffers when the region is entered. The grid has 50
points. The two scratch buffers are carried between points: after point 0 the first holds s1 = x·W1 for good; after
point n - 1 < 25 the second holds rows 0 .. 400·n - 1 of s2 = max(adj·s1, 0)·W2, block s of 400 rows being what point s
computed from adjacency block s; from point 25 on it holds all of s2 and point t writes block t - 25 of mu = adj·s2. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The conditions and the schedule in closed form, decided over the grid -/

theorem hcond0_1 : ∀ t : Fin cfg0.N, cond0_1 (grid0.coords t) ↔ t.val = 0 :=
  (by decide +kernel : ∀ t : Fin grid0.N, cond0_1 (grid0.coords t) ↔ t.val = 0)
theorem hcond0_2 : ∀ t : Fin cfg0.N, k0_cond2 (grid0.coords t) = 1#1 ↔ t.val < 25 :=
  (by decide +kernel : ∀ t : Fin grid0.N, k0_cond2 (grid0.coords t) = 1#1 ↔ t.val < 25)
theorem hcond0_3 : ∀ t : Fin cfg0.N, k0_cond3 (grid0.coords t) = 1#1 ↔ 25 ≤ t.val :=
  (by decide +kernel : ∀ t : Fin grid0.N, k0_cond3 (grid0.coords t) = 1#1 ↔ 25 ≤ t.val)
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
/-- The output window is idle exactly while s < 25, -/
theorem idle0_4 : ∀ t : Fin cfg0.N, t.val < 25 → cfg0.idle 4 (grid0.coords t) = true :=
  (by decide +kernel : ∀ t : Fin grid0.N, t.val < 25 → cfg0.idle 4 (grid0.coords t) = true)
theorem live0_4 : ∀ t : Fin cfg0.N, 25 ≤ t.val → cfg0.idle 4 (grid0.coords t) = false :=
  (by decide +kernel : ∀ t : Fin grid0.N, 25 ≤ t.val → cfg0.idle 4 (grid0.coords t) = false)
/-- and is written back exactly at the points s ≥ 25. -/
theorem flush0_4 : ∀ t : Fin cfg0.N, (cfg0.win 4).flush t = true ↔ 25 ≤ t.val :=
  (by decide +kernel : ∀ t : Fin grid0.N, win0_4.flush t = true ↔ 25 ≤ t.val)
theorem noflush0_4 (t : Fin cfg0.N) (h : t.val < 25) : (cfg0.win 4).flush t = false := by
  cases hf : (cfg0.win 4).flush t
  · rfl
  · exact absurd ((flush0_4 t).mp hf) (by omega)
/-- The rows the second conditional stores start at row 400·s. -/
theorem off0 : ∀ t : Fin cfg0.N, t.val < 25 → k0_off1 (grid0.coords t) = ![400 * t.val, 0] :=
  (by decide +kernel : ∀ t : Fin grid0.N, t.val < 25 → k0_off1 (grid0.coords t) = ![400 * t.val, 0])

theorem N0lt (t : Fin cfg0.N) : t.val < 50 := lt_of_lt_of_eq t.isLt (show cfg0.N = 50 from N_0)
/-- The first point. -/
def t0 : Fin cfg0.N := ⟨0, lt_of_lt_of_eq (by omega : 0 < 50) (show cfg0.N = 50 from N_0).symm⟩

/-! ## The memrefs the body is called with -/

abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
abbrev ms0_4 (t : Fin cfg0.N) := win0_4.stage (cfg0.slots t 4)
abbrev hs0_4 (t : Fin cfg0.N) : (ms0_4 t).IsWhole := hstage0_4 ((cfg0.slots t 4).cast nbuf0_4)
abbrev scM0 : Memref sig .tc .vmem S10000x64 .f32 := Memref.whole cc0_scratch0
abbrev scM1 : Memref sig .tc .vmem S10000x16 .f32 := Memref.whole cc0_scratch1

/-- The core's scoped buffers this kernel never touches (the second kernel's), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_scratch0), ((c : Thread nD τ).loc cc1_scratch0) ↦{fullShare} f))

/-- The invariant before the first point: both scratch buffers at anything. -/
theorem PhiA0_eq (c : Dev nD) :
    (Pipeline.ΦA spec0 c : sProp 𝕄)
      = iprop(iprop((∃ d, owns (c : Thread nD τ) scM0 fullShare d) ∗ (∃ d, owns (c : Thread nD τ) scM1 fullShare d) ∗ Rest0 c) ∗ (∃ r, prngReg c r)) := by
  unfold Pipeline.ΦA Rest0; rw [scopedRest0_eq]; simp only [scM0, scM1, owns_whole]; try rfl

/-! ## What the scratch buffers and the output blocks hold -/

/-- s1: what point 0 leaves in the first scratch. -/
def S1 (c : Dev nD) : Vec F S10000x64 .f32 := k0_pay1 (iblk0 V c 0 t0) (iblk0 V c 2 t0)

/-- Block s of s2: what point s < 25 stores into rows 400·s .. 400·s + 399 of the second scratch. -/
def P2 (c : Dev nD) (s : Fin cfg0.N) : Vec F S400x16 .f32 := k0_pay2 (iblk0 V c 1 s) (S1 V c) (iblk0 V c 3 s)

/-- s2 whole: row r is row r mod 400 of block r / 400. -/
def S2 (c : Dev nD) : Vec F S10000x16 .f32 := fun y =>
  P2 V c ⟨(y 0).val / 400, lt_of_lt_of_eq (by have h : (y 0).val < 10000 := (y 0).isLt; omega : (y 0).val / 400 < 50) (show cfg0.N = 50 from N_0).symm⟩
    (ValueIdx.ix2 ⟨(y 0).val % 400, Nat.mod_lt _ (by omega)⟩ ⟨(y 1).val, (y 1).isLt⟩)

/-- What point t ≥ 25 leaves in the output window's staging buffer: the adjacency block times s2. -/
def out4 (c : Dev nD) (t : Fin cfg0.N) : Vec F S400x16 .f32 := k0_pay3 (iblk0 V c 1 t) (S2 V c)

/-- Overwriting rows 400·s .. 400·s + 399 with block s extends a buffer that agrees with s2 on rows below 400·s to one
    that agrees with it on rows below 400·(s + 1). -/
theorem fill_step (c : Dev nD) (t : Fin cfg0.N) (ht : t.val < 25) (h2 : k0_cond2 (grid0.coords t) = 1#1)
    (arg7 : Memref sig .tc .vmem S10000x16 .f32) (harg7 : arg7.IsWhole) (d : Vec F S10000x16 .f32)
    (hd : ∀ y : S10000x16.Idx, (y 0).val < 400 * t.val → d y = S2 V c y) (y : S10000x16.Idx) (hy : (y 0).val < 400 * (t.val + 1)) :
    upd7 arg7 harg7 (grid0.coords t) h2 d (P2 V c t) y = S2 V c y := by
  unfold upd7
  rw [View.read_writes_cons_rows (o := 400 * t.val) (W := 400) arg7.view (harg7.unread d) (k0_off1_inb (grid0.coords t) h2) (P2 V c t) [] y (off0 t ht) rfl rfl]
  have h10 : (y 0).val < 10000 := (y 0).isLt
  split
  · rename_i h
    unfold S2
    have e1 : (⟨(y 0).val / 400, lt_of_lt_of_eq (by have h : (y 0).val < 10000 := (y 0).isLt; omega : (y 0).val / 400 < 50) (show cfg0.N = 50 from N_0).symm⟩ : Fin cfg0.N) = t :=
      Fin.ext (by show (y 0).val / 400 = t.val; omega)
    rw [e1]
    refine congrArg (P2 V c t) (funext fun a => Fin.ext ?_)
    match a with
    | ⟨0, _⟩ => show (y 0).val - 400 * t.val = (y 0).val % 400; omega
    | ⟨1, _⟩ => show (y 1).val - 0 = (y 1).val; omega
  · rename_i h
    have hlt : (y 0).val < 400 * t.val := by omega
    rw [← hd y hlt]
    show arg7.view.read (Elt F) (harg7.unread d) y = d y
    rw [harg7.read_unread]

/-! ## The invariant -/

/-- After point n - 1 ≥ 0: the first scratch at s1, the second agreeing with s2 on rows below 400·n. -/
def Scr (c : Dev nD) (n : ℕ) : sProp 𝕄 :=
  iprop(iprop(owns (c : Thread nD τ) scM0 fullShare (S1 V c)
      ∗ (∃ d : Vec F S10000x16 .f32, ⌜∀ y : S10000x16.Idx, (y 0).val < 400 * n → d y = S2 V c y⌝ ∗ owns (c : Thread nD τ) scM1 fullShare d)
      ∗ Rest0 c) ∗ (∃ r, prngReg c r))

def PhiS0 (c : Dev nD) : ℕ → sProp 𝕄
  | 0 => Pipeline.ΦA spec0 c
  | n + 1 => Scr V c (n + 1)

theorem PhiS0_pos (c : Dev nD) (n : ℕ) (h : n ≠ 0) : PhiS0 V c n = Scr V c n := by
  cases n with
  | zero => exact absurd rfl h
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out4 V c t
  Φ t := PhiS0 V c t.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out4 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem Phi_castSucc0 (c : Dev nD) (t : Fin cfg0.N) : (dat0 V c).Φ t.castSucc = PhiS0 V c t.val := by
  dsimp only [dat0]; simp only [Fin.coe_castSucc]

end Cert.Kernel.Hand

end
-- ==== Proof.K.R0Obl.lean ====
import proofs.«123276_g25769804171_cont_9to1_1144_6_alg».proof.Proof.K.R0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The first kernel region: the body obligation

At every grid point the body, called on the windows' current staging buffers and the two scratch buffers, runs from
the invariant before the point to the invariant after it, leaving each input buffer as found and the output buffer
either untouched (s < 25, where the pipeline does not write it back) or holding the product block (s ≥ 25). -/

variable (V : (c : Dev nD) → (b : Ref sig .tc) → Buf (Elt F) ((c : Thread nD τ).loc b))

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

/-- From point 25 on the second scratch, agreeing with s2 on rows below 400·n ≥ 10000, IS s2. -/
theorem full_of_filled (c : Dev nD) (n : ℕ) (hn : 25 ≤ n) (d : Vec F S10000x16 .f32)
    (hd : ∀ y : S10000x16.Idx, (y 0).val < 400 * n → d y = S2 V c y) : d = S2 V c :=
  funext fun y => hd y (by have h : (y 0).val < 10000 := (y 0).isLt; omega)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) from rfl, PhiS0_pos V c (t.val + 1) (Nat.succ_ne_zero _), Phi_castSucc0]
  rw [show (dat0 V c).leavesExact 0 t = owns (c : Thread nD τ) (ms0_0 t) fullShare ((dat0 V c).after 0 t) from by
      unfold Dat.leavesExact; rw [live0_0 t], after0_0]
  rw [show (dat0 V c).leavesExact 1 t = owns (c : Thread nD τ) (ms0_1 t) fullShare ((dat0 V c).after 1 t) from by
      unfold Dat.leavesExact; rw [live0_1 t], after0_1]
  rw [show (dat0 V c).leavesExact 2 t = owns (c : Thread nD τ) (ms0_2 t) fullShare ((dat0 V c).after 2 t) from by
      unfold Dat.leavesExact; rw [live0_2 t], after0_2]
  rw [show (dat0 V c).leavesExact 3 t = owns (c : Thread nD τ) (ms0_3 t) fullShare ((dat0 V c).after 3 t) from by
      unfold Dat.leavesExact; rw [live0_3 t], after0_3]
  have hN := N0lt t
  by_cases hz : t.val = 0
  · -- the first point
    have h1 : cond0_1 (grid0.coords t) := (hcond0_1 t).mpr hz
    have h2 : k0_cond2 (grid0.coords t) = 1#1 := (hcond0_2 t).mpr (by omega)
    have h3 : ¬ k0_cond3 (grid0.coords t) = 1#1 := fun h => by have := (hcond0_3 t).mp h; omega
    rw [Dat.leavesExact_idle (dat0 V c) 4 t (idle0_4 t (by omega)) (noflush0_4 t (by omega))]
    rw [show PhiS0 V c t.val = Pipeline.ΦA spec0 c from by rw [hz]; rfl, PhiA0_eq]
    unfold Scr
    obtain rfl : t = t0 := Fin.ext hz
    iintro ⟨⟨⟨⟨%d6, HS0⟩, ⟨%d7, HS1⟩, HR⟩, Hg⟩, Ho, ⟨%d0, H0⟩, ⟨%d1, H1⟩, ⟨%d2, H2⟩, ⟨%d3, H3⟩, ⟨%d4, H4⟩⟩
    iapply (run0_A c Set.univ (grid0.coords t0) _ _ _ _ _ _ _ _ _ _ _ _ _ _ h1 h2 h3 (iblk0 V c 0 t0) (iblk0 V c 1 t0) (iblk0 V c 2 t0) (iblk0 V c 3 t0) _ d6 d7 _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0]; · iexact HS0
        isplitl [HS1]
        · iexists _; isplitr
          swap; · iexact HS1
          ipureintro
          intro y hy
          exact fill_step V c t0 (by show (0 : ℕ) < 25; omega) h2 scM1 (Memref.isWhole_whole _) d7 (fun y hy => absurd hy (by show ¬ (y 0).val < 400 * 0; omega)) y hy
        iexact HR
      iexact Hg
    isplitl [Ho]; · iexact Ho
    isplitl [H0]; · iexact H0
    isplitl [H1]; · iexact H1
    isplitl [H2]; · iexact H2
    isplitl [H3]; · iexact H3
    iexists _; iexact H4
  · by_cases hlt : t.val < 25
    · -- a later point of the first phase
      have h1 : ¬ cond0_1 (grid0.coords t) := fun h => hz ((hcond0_1 t).mp h)
      have h2 : k0_cond2 (grid0.coords t) = 1#1 := (hcond0_2 t).mpr hlt
      have h3 : ¬ k0_cond3 (grid0.coords t) = 1#1 := fun h => by have := (hcond0_3 t).mp h; omega
      rw [Dat.leavesExact_idle (dat0 V c) 4 t (idle0_4 t hlt) (noflush0_4 t hlt)]
      rw [PhiS0_pos V c t.val hz]
      unfold Scr
      iintro ⟨⟨⟨HS0, ⟨%d7, %hd7, HS1⟩, HR⟩, Hg⟩, Ho, ⟨%d0, H0⟩, ⟨%d1, H1⟩, ⟨%d2, H2⟩, ⟨%d3, H3⟩, ⟨%d4, H4⟩⟩
      iapply (run0_B c Set.univ (grid0.coords t) _ _ _ _ _ _ _ _ _ _ _ _ _ _ h1 h2 h3 (iblk0 V c 0 t) (iblk0 V c 1 t) (iblk0 V c 2 t) (iblk0 V c 3 t) _ (S1 V c) d7 _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]
          · iexists _; isplitr
            swap; · iexact HS1
            ipureintro
            intro y hy
            exact fill_step V c t hlt h2 scM1 (Memref.isWhole_whole _) d7 hd7 y hy
          iexact HR
        iexact Hg
      isplitl [Ho]; · iexact Ho
      isplitl [H0]; · iexact H0
      isplitl [H1]; · iexact H1
      isplitl [H2]; · iexact H2
      isplitl [H3]; · iexact H3
      iexists _; iexact H4
    · -- the second phase
      have h25 : 25 ≤ t.val := by omega
      have h1 : ¬ cond0_1 (grid0.coords t) := fun h => hz ((hcond0_1 t).mp h)
      have h2 : ¬ k0_cond2 (grid0.coords t) = 1#1 := fun h => hlt ((hcond0_2 t).mp h)
      have h3 : k0_cond3 (grid0.coords t) = 1#1 := (hcond0_3 t).mpr h25
      rw [show (dat0 V c).leavesExact 4 t = owns (c : Thread nD τ) (ms0_4 t) fullShare ((dat0 V c).after 4 t) from by
        unfold Dat.leavesExact; rw [live0_4 t h25], after0_4]
      rw [PhiS0_pos V c t.val hz]
      unfold Scr
      iintro ⟨⟨⟨HS0, ⟨%d7, %hd7, HS1⟩, HR⟩, Hg⟩, Ho, ⟨%d0, H0⟩, ⟨%d1, H1⟩, ⟨%d2, H2⟩, ⟨%d3, H3⟩, ⟨%d4, H4⟩⟩
      obtain rfl := full_of_filled V c t.val h25 d7 hd7
      iapply (run0_C c Set.univ (grid0.coords t) _ _ _ _ _ _ _ _ _ _ _ _ _ _ h1 h2 h3 (iblk0 V c 0 t) (iblk0 V c 1 t) (iblk0 V c 2 t) (iblk0 V c 3 t) _ (S1 V c) (S2 V c) _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]
          · iexists _; isplitr
            swap; · iexact HS1
            ipureintro
            intro y _
            rfl
          iexact HR
        iexact Hg
      isplitl [Ho]; · iexact Ho
      isplitl [H0]; · iexact H0
      isplitl [H1]; · iexact H1
      isplitl [H2]; · iexact H2
      isplitl [H3]; · iexact H3
      iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 from rfl]
  exact Idealize.SL.BI.Entails.refl _

/-- After the last point the invariant gives the scoped rest back, the scratch contents forgotten. -/
theorem hout0 (c : Dev nD) : (dat0 V c).Φ (Fin.last cfg0.N) ⊢ Pipeline.ΦA spec0 c := by
  rw [show (dat0 V c).Φ (Fin.last cfg0.N) = PhiS0 V c cfg0.N from rfl,
    PhiS0_pos V c cfg0.N (by rw [show cfg0.N = 50 from N_0]; omega), PhiA0_eq]
  unfold Scr
  iintro ⟨⟨HS0, ⟨%d7, -, HS1⟩, HR⟩, Hg⟩
  isplitl [HS0 HS1 HR]
  · isplitl [HS0]; · iexists _; iexact HS0
    isplitl [HS1]; · iexists _; iexact HS1
    iexact HR
  iexact Hg

end Cert.Kernel.Hand

end
-- ==== Proof.K.R1.lean ====
import proofs.«123276_g25769804171_cont_9to1_1144_6_alg».proof.Proof.Gen.Kernel.Launch
import proofs.«123276_g25769804171_cont_9to1_1144_6_alg».proof.Proof.Gen.Kernel.Skeleton
import proofs.«123276_g25769804171_cont_9to1_1144_6_alg».proof.Proof.Gen.Kernel.Points
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered: everything below is stated at them
variable (V : (c : Dev nD) → (b : Ref sig .tc) → Buf (Elt F) ((c : Thread nD τ).loc b))

/-! # The second pallas_call (`cc1__c_body`, 25 grid points), at the entry contents `V`

The body transposes its whole input into a scratch buffer at the first grid point only, and at every point
multiplies 400 rows of the input by the scratch into the output block. The scratch is carried between
points: the region invariant names its contents after the first point. -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The zero offsets of a rank-2 access, as a constant function. -/
theorem zeros1 : (![0, 0] : Fin 2 → Nat) = fun _ => 0 := funext fun a => by fin_cases a <;> rfl

/-- The 400 rows of the input the body multiplies at grid coordinates `i`. -/
abbrev rB1 (i : grid1.Coords) : Rect S10000x16 := Rect.unit (s := S10000x16) (k1_off1 i) S400x16.size (k1_off1_inb i)

/-- The first grid point. -/
abbrev t0_1 : Fin cfg1.N := ⟨0, by rw [show cfg1.N = 25 from N_1]; decide⟩

/-- The scratch operand: a whole scoped buffer of the kernel's own, passed beside the windows. -/
abbrev scT1 : Memref sig .tc .vmem S16x10000 .f32 := Memref.whole cc1_scratch0

/-- The branch condition of the body's one conditional, from the grid coordinates. -/
abbrev cond1 (i : grid1.Coords) : Prop := (Scalar.cmpi .ne (Scalar.extui (Scalar.cmpi .eq (BitVec.ofNat 32 (i 0).val) 0#32)) 0#32) = 1#1
/-- It holds at the first point only: decided over the grid. -/
theorem hcond1 : ∀ t : Fin cfg1.N, cond1 (grid1.coords t) ↔ t.val = 0 :=
  (by decide +kernel : ∀ t : Fin grid1.N, cond1 (grid1.coords t) ↔ t.val = 0)

/-! ## What the body leaves -/

/-- What the scratch holds after the first point: the transpose payload of window 0's block there. -/
def mut1 (c : Dev nD) : Vec F S16x10000 .f32 := k1_pay1 (iblk1 V c 0 t0_1 : Vec F S10000x16 .f32)

/-- What the body leaves in window 1's staging buffer at point `t`: the product payload of the point's 400 rows of
    window 0's block and the scratch contents. -/
def out1 (c : Dev nD) (t : Fin cfg1.N) : Vec F S400x10000 .f32 :=
  k1_pay2 (View.ld (iblk1 V c 0 t : Vec F S10000x16 .f32) (rB1 (grid1.coords t))) (mut1 V c)

/-- At the first point the scratch contents are the transpose payload of that point's block. -/
theorem mut1_eq (c : Dev nD) (t : Fin cfg1.N) (hz : t.val = 0) : mut1 V c = k1_pay1 (iblk1 V c 0 t : Vec F S10000x16 .f32) := by
  have h : t = t0_1 := Fin.ext hz
  subst h; rfl

/-- A load through a whole memref, of raw contents that read `X`, reads `X` at the rectangle. -/
theorem readAt_unread1 {sh : Shape} {e : EltTy} (m : Memref sig .tc .vmem sh e) (h : m.IsWhole) (X : sh.Idx → Elt F e) (r : Rect sh) :
    View.readAt (Elt F) m.view r.toLoadRect (h.unread X) = View.ld X r :=
  congrArg (fun Y => View.ld Y r) (h.read_unread X)

/-! ## The body's triple, in its two cases -/

set_option maxHeartbeats 1000000 in
/-- AT THE FIRST POINT (the conditional taken): on whole memrefs, the input at `x0`, the output and the scratch at
    anything, the body runs to the input as it was, the scratch at the transpose payload of `x0` (its one store
    covers the buffer) and the output at the product payload of the point's rows and that payload (the load after
    the covering store reads the payload back). -/
theorem sound_kernel1_Z (c : Dev nD) (E : Set ℕ) (i : grid1.Coords)
    (arg1 : Memref sig .tc .vmem S10000x16 .f32) (harg1 : arg1.IsWhole) (arg2 : Memref sig .tc .vmem S400x10000 .f32) (harg2 : arg2.IsWhole)
    (arg3 : Memref sig .tc .vmem S16x10000 .f32) (harg3 : arg3.IsWhole) (hc : cond1 i)
    (x0 : Vec F S10000x16 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0
            ∗ owns (c : Thread nD τ) arg2 fullShare (k1_pay2 (View.ld x0 (rB1 i)) (k1_pay1 x0))
            ∗ owns (c : Thread nD τ) arg3 fullShare (k1_pay1 x0)) -∗ K ⟨⟩))
      ⊢ wp frame (wpE (defs₀ (F := F)) Variants.none c none) E (cc1__c_body i arg1 harg1 arg2 harg2 arg3 harg3) K := by
  simp only [cc1__c_body_eq_skeleton]; unfold cc1__c_body_skel
  unfold owns
  iintro ⟨⟨%f0, %hf0, H0⟩, ⟨%d1, %f1, -, H1⟩, ⟨%d2, %f2, -, H2⟩, Hk⟩
  obtain rfl := harg1.eq_unread hf0
  sl_exec (disch := first | exact hc)
  sl_step
  sl_unfold_run_names
  have hx : View.readAt (Elt F) arg1.view (Rect.unit (s := S10000x16) ![0, 0] S10000x16.size inb_S10000x16_S10000x16_0_0).toLoadRect (harg1.unread x0) = x0 :=
    (readAt_unread1 arg1 harg1 x0 _).trans (View.ld_unit_zero zeros1 _ x0)
  iapply Hk
  isplitl [H0]
  · iexists _; isplitr; · ipureintro; exact harg1.read_unread _
    iexact H0
  isplitl [H1]
  · iexists _; isplitr
    swap; · iexact H1
    ipureintro
    refine (View.read_writes_eq_canon _ _ _ (fun y => ⟨_, List.mem_singleton_self _, View.mem_set_unit_zero zeros1 inb_S400x10000_S400x10000_0_0 y⟩)).trans
      ((View.canon_unit_zero zeros1 _ _).trans ?_)
    exact congrArg₂ k1_pay2 (readAt_unread1 arg1 harg1 x0 (rB1 i))
      ((View.readCov_unit_zero _ zeros1 _ _).trans (congrArg k1_pay1 hx))
  iexists _; isplitr
  swap; · iexact H2
  ipureintro
  exact (View.read_writes_eq_canon _ _ _ (fun y => ⟨_, List.mem_singleton_self _, View.mem_set_unit_zero zeros1 inb_S16x10000_S16x10000_0_0 y⟩)).trans
    ((View.canon_unit_zero zeros1 _ _).trans (congrArg k1_pay1 hx))

set_option maxHeartbeats 1000000 in
/-- AT A LATER POINT (the conditional not taken): the input at `x0`, the scratch at `xs`, the output at anything;
    the body runs to the input and the scratch as they were and the output at the product payload of the point's
    rows and `xs`. -/
theorem sound_kernel1_P (c : Dev nD) (E : Set ℕ) (i : grid1.Coords)
    (arg1 : Memref sig .tc .vmem S10000x16 .f32) (harg1 : arg1.IsWhole) (arg2 : Memref sig .tc .vmem S400x10000 .f32) (harg2 : arg2.IsWhole)
    (arg3 : Memref sig .tc .vmem S16x10000 .f32) (harg3 : arg3.IsWhole) (hc : ¬ cond1 i)
    (x0 : Vec F S10000x16 .f32) (xs : Vec F S16x10000 .f32) (K : PUnit → sProp 𝕄) :
    iprop(owns (c : Thread nD τ) arg1 fullShare x0 ∗ (∃ d, owns (c : Thread nD τ) arg2 fullShare d) ∗ owns (c : Thread nD τ) arg3 fullShare xs
        ∗ (iprop(owns (c : Thread nD τ) arg1 fullShare x0
            ∗ owns (c : Thread nD τ) arg2 fullShare (k1_pay2 (View.ld x0 (rB1 i)) xs)
            ∗ owns (c : Thread nD τ) arg3 fullShare xs) -∗ K ⟨⟩))
      ⊢ wp frame (wpE (defs₀ (F := F)) Variants.none c none) E (cc1__c_body i arg1 harg1 arg2 harg2 arg3 harg3) K := by
  simp only [cc1__c_body_eq_skeleton]; unfold cc1__c_body_skel
  unfold owns
  iintro ⟨⟨%f0, %hf0, H0⟩, ⟨%d1, %f1, -, H1⟩, ⟨%f2, %hf2, H2⟩, Hk⟩
  obtain rfl := harg1.eq_unread hf0; obtain rfl := harg3.eq_unread hf2
  sl_exec (disch := first | exact hc)
  sl_step
  iapply Hk
  isplitl [H0]
  · iexists _; isplitr; · ipureintro; exact harg1.read_unread _
    iexact H0
  isplitl [H1]
  · iexists _; isplitr
    swap; · iexact H1
    ipureintro
    refine (View.read_writes_eq_canon _ _ _ (fun y => ⟨_, List.mem_singleton_self _, View.mem_set_unit_zero zeros1 inb_S400x10000_S400x10000_0_0 y⟩)).trans
      ((View.canon_unit_zero zeros1 _ _).trans ?_)
    exact congrArg₂ k1_pay2 (readAt_unread1 arg1 harg1 x0 (rB1 i))
      ((readAt_unread1 arg3 harg3 xs _).trans (View.ld_unit_zero zeros1 _ xs))
  iexists _; isplitr; · ipureintro; exact harg3.read_unread _
  iexact H2

/-! ## The region invariant -/

/-- The core's scoped buffers other than the staging buffers of this call and other than its scratch, each whole at
    some contents, and the generator register at some state: what the body never touches. -/
def rest1 (c : Dev nD) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg4_0), ((c : Thread nD τ).loc cc0_stg4_0) ↦{fullShare} f)
      ∗ (∃ f : Buf (Elt F) ((c : Thread nD τ).loc cc0_stg4_1), ((c : Thread nD τ).loc cc0_stg4_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))
    ∗ ∃ r, prngReg c r)

/-- Nine resources, then one, beside another: the one moved to the front (separating conjunction is associative
    and commutative). -/
theorem chain1 (A1 A2 A3 A4 A5 A6 A7 A8 A9 S G : sProp 𝕄) :
    (iprop((A1 ∗ A2 ∗ A3 ∗ A4 ∗ A5 ∗ A6 ∗ A7 ∗ A8 ∗ A9 ∗ S) ∗ G) : sProp 𝕄) = iprop(S ∗ (A1 ∗ A2 ∗ A3 ∗ A4 ∗ A5 ∗ A6 ∗ A7 ∗ A8 ∗ A9) ∗ G) := by
  have h₁ : iprop((A1 ∗ A2 ∗ A3 ∗ A4 ∗ A5 ∗ A6 ∗ A7 ∗ A8 ∗ A9 ∗ S) ∗ G) ⊢ (iprop(S ∗ (A1 ∗ A2 ∗ A3 ∗ A4 ∗ A5 ∗ A6 ∗ A7 ∗ A8 ∗ A9) ∗ G) : sProp 𝕄) := by
    iintro ⟨⟨H1, H2, H3, H4, H5, H6, H7, H8, H9, HS⟩, Hg⟩
    isplitl [HS]; · iexact HS
    isplitr [Hg]
    swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  have h₂ : iprop(S ∗ (A1 ∗ A2 ∗ A3 ∗ A4 ∗ A5 ∗ A6 ∗ A7 ∗ A8 ∗ A9) ∗ G) ⊢ (iprop((A1 ∗ A2 ∗ A3 ∗ A4 ∗ A5 ∗ A6 ∗ A7 ∗ A8 ∗ A9 ∗ S) ∗ G) : sProp 𝕄) := by
    iintro ⟨HS, ⟨H1, H2, H3, H4, H5, H6, H7, H8, H9⟩, Hg⟩
    isplitr [Hg]
    swap; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  exact BI.equiv_iff.mp ⟨h₁, h₂⟩

/-- The class invariant with the scratch operand split off as a memref owned at some contents. -/
theorem PhiA1_eq (c : Dev nD) :
    (Pipeline.ΦA spec1 c : sProp 𝕄) = iprop((∃ d, owns (c : Thread nD τ) scT1 fullShare d) ∗ rest1 c) := by
  unfold Pipeline.ΦA rest1; rw [scopedRest1_eq]; simp only [scT1, owns_whole]
  exact chain1 _ _ _ _ _ _ _ _ _ _ _

/-- The region invariant before position `n`: before the first point the class's (every scoped buffer at anything);
    afterwards the scratch at the transpose payload the first point stored, the other scoped buffers at anything,
    the generator register at some state. -/
def PhiS1 (c : Dev nD) : (n : ℕ) → n ≤ cfg1.N → sProp 𝕄
  | 0, _ => Pipeline.ΦA spec1 c
  | _ + 1, _ => iprop(owns (c : Thread nD τ) scT1 fullShare (mut1 V c) ∗ rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n + 1 ≤ cfg1.N) :
    PhiS1 V c (n + 1) hn = iprop(owns (c : Thread nD τ) scT1 fullShare (mut1 V c) ∗ rest1 c) := rfl

theorem PhiS1_pos (c : Dev nD) (n : ℕ) (h : n ≤ cfg1.N) (hz : n ≠ 0) :
    PhiS1 V c n h = iprop(owns (c : Thread nD τ) scT1 fullShare (mut1 V c) ∗ rest1 c) := by
  cases n with
  | zero => exact absurd rfl hz
  | succ n => rfl

/-! ## The pipeline's proof data -/

/-- The proof data of this pipeline on core `c`: the arrays as the region finds them; after the body at point `t`
    the input's buffer at its block and the output's at `out1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1 V c t := by dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- The input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

set_option maxHeartbeats 1000000 in
/-- The body at any point: the input's memref holds its block; the closed form of the branch condition says which
    case the point is in; at the first point the invariant hands the scratch at anything and takes it back at the
    transpose payload, at a later point it hands the scratch at that payload and takes it back unchanged; the
    other scoped buffers, the generator register and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = PhiS1 V c (t.val + 1) t.isLt from rfl, PhiS1_succ, after1_0, after1_1]
  by_cases hz : t.val = 0
  · rw [PhiS1_castSucc V c t, PhiS1_zero V c _ _ hz, PhiA1_eq]
    unfold out1; rw [mut1_eq V c t hz]
    iintro ⟨⟨HS, HR⟩, Ho, ⟨%d0, H0⟩, ⟨%d1, H1⟩⟩
    iapply (sound_kernel1_Z c Set.univ (grid1.coords t) _ _ _ _ _ _ ((hcond1 t).mpr hz) (iblk1 V c 0 t) _)
    isplitl [H0]; · iexact H0
    isplitl [H1]; · iexists _; iexact H1
    isplitl [HS]; · iexact HS
    iintro ⟨H0, H1, HS⟩
    isplitl [HS HR]
    · isplitl [HS]; · iexact HS
      iexact HR
    isplitl [Ho]; · iexact Ho
    isplitl [H0]; · iexact H0
    iexact H1
  · rw [PhiS1_castSucc V c t, PhiS1_pos V c _ _ hz]
    unfold out1
    iintro ⟨⟨HS, HR⟩, Ho, ⟨%d0, H0⟩, ⟨%d1, H1⟩⟩
    iapply (sound_kernel1_P c Set.univ (grid1.coords t) _ _ _ _ _ _ (fun h => hz ((hcond1 t).mp h)) (iblk1 V c 0 t) (mut1 V c) _)
    isplitl [H0]; · iexact H0
    isplitl [H1]; · iexists _; iexact H1
    isplitl [HS]; · iexact HS
    iintro ⟨H0, H1, HS⟩
    isplitl [HS HR]
    · isplitl [HS]; · iexact HS
      iexact HR
    isplitl [Ho]; · iexact Ho
    isplitl [H0]; · iexact H0
    iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 25 := N_1; omega), PhiA1_eq]
  iintro ⟨HS, HR⟩
  isplitl [HS]
  · iexists _; iexact HS
  iexact HR

end Region1

end Cert.Kernel.Hand

end
-- ==== Proof.K.Run.lean ====
import proofs.«123276_g25769804171_cont_9to1_1144_6_alg».proof.Proof.K.R0Obl
import proofs.«123276_g25769804171_cont_9to1_1144_6_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: the two regions in order, from the launch to the return

The core's unscoped buffers are followed through the program: the launch contents, then region 0's arrays at what its
write-backs leave (the embedding mu in its buffer, the arguments untouched), then region 1's (the reconstruction in
the result buffer). Each region is entered from the contents the one before left; at the end every argument buffer
holds its launch contents and the result buffer what region 1's write-backs left. -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev VV0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (VV0 m ρ) c).arrAt w cfg0.N
theorem W1_arr (c : Dev nD) (w : Fin cfg0.W) :
    W1 m ρ c (Proc.devRef .tc (Pipeline.arrRef spec0 w)) = (dat0 (VV0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev VV1 : (c : Dev nD) → (b : Ref sig .tc) → Buf (Elt F) ((c : Thread nD τ).loc b) := fun c b => W1 m ρ c b
theorem hF0 (c : Dev nD) (w : Fin cfg0.W) : (dat0 (VV0 m ρ) c).arrAt w cfg0.N = VV1 m ρ c (Pipeline.arrRef spec0 w) :=
  (W1_arr m ρ c w).symm
theorem hrest0 (c : Dev nD) : ∀ b, b ∉ Finset.univ.image (Pipeline.arrRef spec0) → VV1 m ρ c b = VV0 m ρ c b :=
  fun b hb => W1_of_ne m ρ c b fun w e => hb (Finset.mem_image.mpr ⟨w, Finset.mem_univ _, e⟩)

/-- At region 1's exit. -/
def W2 (c : Dev nD) : Valuation τ sig (Elt F) :=
  Pipeline.withArrays spec1 c (W1 m ρ c) fun w => (dat1 (VV1 m ρ) c).arrAt w cfg1.N
theorem W2_arr (c : Dev nD) (w : Fin cfg1.W) :
    W2 m ρ c (Proc.devRef .tc (Pipeline.arrRef spec1 w)) = (dat1 (VV1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev VV2 : (c : Dev nD) → (b : Ref sig .tc) → Buf (Elt F) ((c : Thread nD τ).loc b) := fun c b => W2 m ρ c b
theorem hF1 (c : Dev nD) (w : Fin cfg1.W) : (dat1 (VV1 m ρ) c).arrAt w cfg1.N = VV2 m ρ c (Pipeline.arrRef spec1 w) :=
  (W2_arr m ρ c w).symm
theorem hrest1 (c : Dev nD) : ∀ b, b ∉ Finset.univ.image (Pipeline.arrRef spec1) → VV2 m ρ c b = VV1 m ρ c b :=
  fun b hb => W2_of_ne m ρ c b fun w e => hb (Finset.mem_image.mpr ⟨w, Finset.mem_univ _, e⟩)

/-! ### The arguments end as launched; the result buffer holds region 1's output -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (VV0 m ρ) c).arrAt_in 0 rfl _).trans (A_eq0 (VV0 m ρ) c 0))
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 1).trans (((dat0 (VV0 m ρ) c).arrAt_in 1 rfl _).trans (A_eq0 (VV0 m ρ) c 1))
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 2).trans (((dat0 (VV0 m ρ) c).arrAt_in 2 rfl _).trans (A_eq0 (VV0 m ρ) c 2))
    _ = m ((c : Thread nD τ).loc main_arg2) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := (W1_arr m ρ c 3).trans (((dat0 (VV0 m ρ) c).arrAt_in 3 rfl _).trans (A_eq0 (VV0 m ρ) c 3))
    _ = m ((c : Thread nD τ).loc main_arg3) := rfl
theorem W2_main_v1 (c : Dev nD) : W2 m ρ c (Proc.devRef .tc main_v1) = (dat1 (VV1 m ρ) c).arrAt 1 cfg1.N := W2_arr m ρ c 1
/-- Region 1 is entered with the embedding's buffer at what region 0's write-backs left. -/
theorem VV1_main_v0 (c : Dev nD) : VV1 m ρ c main_v0 = (dat0 (VV0 m ρ) c).arrAt 4 cfg0.N := W1_arr m ρ c 4
theorem VV0_main_arg0 (c : Dev nD) : VV0 m ρ c main_arg0 = m ((c : Thread nD τ).loc main_arg0) := rfl
theorem VV0_main_arg1 (c : Dev nD) : VV0 m ρ c main_arg1 = m ((c : Thread nD τ).loc main_arg1) := rfl
theorem VV0_main_arg2 (c : Dev nD) : VV0 m ρ c main_arg2 = m ((c : Thread nD τ).loc main_arg2) := rfl
theorem VV0_main_arg3 (c : Dev nD) : VV0 m ρ c main_arg3 = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (VV0 m ρ) c
  | ⟨1, _⟩ => fun c => dat1 (VV1 m ρ) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

/-! ## The regions as segments -/

set_option backward.isDefEq.respectTransparency.types false in
/-- Region 0 over the thread state: entered from every unscoped buffer at the boundary's contents, left at the next
    boundary's. Its arrays are split out of the unscoped buffers and put back at the contents the write-backs leave;
    the generator register and the scoped rest go into the region's invariant and come back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (VV0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (VV0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (VV0 m ρ) c).Φ 0 from rfl]
    refine BIBase.Entails.trans ?_ (hin0 (VV0 m ρ) c)
    unfold Pipeline.ΦA
    iintro ⟨Hp, -, Hr⟩
    isplitl [Hr]; · iexact Hr
    iexact Hp
  hout c := by
    rw [Pipeline.ownSems0_none, show (pdats m ρ 0 c).Φ (Fin.last _) = (dat0 (VV0 m ρ) c).Φ (Fin.last cfg0.N) from rfl]
    refine BIBase.Entails.trans (hout0 (VV0 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (VV0 m ρ c) (VV1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary's contents, left at the next
    boundary's. Its arrays are split out of the unscoped buffers and put back at the contents the write-backs leave;
    the generator register and the scoped rest go into the region's invariant and come back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VV1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (VV1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (VV1 m ρ) c).Φ 0 from rfl]
    refine BIBase.Entails.trans ?_ (hin1 (VV1 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (VV1 m ρ) c).Φ (Fin.last cfg1.N) from rfl]
    refine BIBase.Entails.trans (hout1 (VV1 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (VV1 m ρ c) (VV2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its two regions, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, faulting
    nowhere, and every final state has the result buffer at what region 1's write-backs leave and each argument
    buffer at its launch contents. -/
theorem run_value : θ_run defs (onTc (τ := τ) (main (F := F))) ⟨m, fun _ => 0, ρ⟩ (fun r => ∀ c : Dev nD,
      r.2.mem ((c.tc : Thread nD τ).loc main_v1) = (dat1 (VV1 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v1 (by decide))).trans (W2_main_v1 m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

/-- The frame: every argument buffer ends at its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_value m ρ)

end Cert.Kernel.Hand

end
-- ==== Proof.lean ====
/-
  A two-layer graph auto-encoder's forward pass, computed two ways, gives the same array on the extended reals.
  Both programs take node features x, a dense adjacency adj and two weight matrices, and compute s1 = x·W1,
  the hidden layer max(adj·s1, 0), s2 = hidden·W2, the embedding mu = adj·s2 and the reconstruction mu·muᵀ.
  The reference forms each product of whole arrays in turn, transposing mu before the last one. The kernel makes
  two passes over the adjacency in blocks of 400 rows: the first step stores s1 in a scratch buffer, each step of
  the first pass stores 400 rows of s2 in a second scratch buffer, and each step of the second pass multiplies an
  adjacency block with the finished s2 to write 400 rows of mu; a second grid then stores muᵀ once and writes
  the reconstruction 400 rows at a time as a plain product against that stored transpose. Entry by entry both
  sides are the very same finite sums of products, a maximum with zero between them, in the same order of
  composition; no law of arithmetic relates them, so nothing asks an entry to be finite.
-/
import proofs.«123276_g25769804171_cont_9to1_1144_6_alg».proof.Defs
import proofs.«123276_g25769804171_cont_9to1_1144_6_alg».proof.Proof.Gen.Kernel
import proofs.«123276_g25769804171_cont_9to1_1144_6_alg».proof.Proof.Gen.KernelIdeal
import proofs.«123276_g25769804171_cont_9to1_1144_6_alg».proof.Proof.Gen.ReferenceIdeal
import proofs.«123276_g25769804171_cont_9to1_1144_6_alg».proof.Proof.Gen.Pre_finite_inputs
import proofs.«123276_g25769804171_cont_9to1_1144_6_alg».proof.Proof.Bridge
import proofs.«123276_g25769804171_cont_9to1_1144_6_alg».proof.Proof.K.Run
import proofs.«123276_g25769804171_cont_9to1_1144_6_alg».proof.Proof.RefValue

noncomputable section

namespace Cert.Proof

open Idealize.ShloMosaic Idealize.ShloMosaic.TcCoe Idealize.SL.Sem

/-- The word-level kernel runs to the end and leaves its arguments as launched. -/
theorem frame_k : Cert.frame_Kernel := fun m ρ _ => Cert.Kernel.Hand.frame m ρ

/-- So does the kernel read on the extended reals. -/
theorem frame_ki : Cert.frame_KernelIdeal := fun m ρ _ => Cert.KernelIdeal.Hand.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result buffer at the specification's
    output of those arguments: the kernel by its two regions' arrays, the reference by its stages read in turn. -/
theorem algebraic : Cert.algebraic_KernelIdeal_ReferenceIdeal := by
  intro m ρ m' ρ' _ hagree
  refine ⟨fun c => Cert.ReferenceIdeal.RefValue.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Hand.kernel_value m ρ c), (h c).2⟩)
      (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.RefValue.result_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
